-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x256 : Shape := ⟨2, ![1024, 256]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S256 .f32) (main_arg8 : FVec F S256x1024 .f32) (main_arg9 : FVec F S1024 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x256 .f32) (main_arg7 : FVec F S256 .f32) (main_arg8 : FVec F S256x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x256 .f32 := Host.absf main_arg6
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S1024x256 .f32) (main_arg2 : FVec F S1024x256 .f32) (main_arg3 : FVec F S1024x1024 .f32) (main_arg4 : FVec F S1024x1024 .f32) (main_arg5 : FVec F S1024 .f32) (main_arg6 : FVec F S1024x256 .f32) (main_arg7 : FVec F S256 .f32) (main_arg8 : FVec F S256x1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S1024x256 : Shape := ⟨2, ![1024, 256]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S1x1024 : Shape := ⟨2, ![1, 1024]⟩
abbrev S1x256 : Shape := ⟨2, ![1, 256]⟩
abbrev S4x2048x256 : Shape := ⟨3, ![4, 2048, 256]⟩
abbrev S1x512x1024 : Shape := ⟨3, ![1, 512, 1024]⟩
abbrev S1x512x256 : Shape := ⟨3, ![1, 512, 256]⟩
abbrev S512x1024 : Shape := ⟨2, ![512, 1024]⟩
abbrev S512x256 : Shape := ⟨2, ![512, 256]⟩
abbrev S4x2048x2048 : Shape := ⟨3, ![4, 2048, 2048]⟩
abbrev S1x256x1024 : Shape := ⟨3, ![1, 256, 1024]⟩
abbrev S1x2048x256 : Shape := ⟨3, ![1, 2048, 256]⟩
abbrev S1x2048x1024 : Shape := ⟨3, ![1, 2048, 1024]⟩
abbrev S1x256x2048 : Shape := ⟨3, ![1, 256, 2048]⟩
abbrev S256x256 : Shape := ⟨2, ![256, 256]⟩
abbrev S2048x256 : Shape := ⟨2, ![2048, 256]⟩
abbrev S2048x1024 : Shape := ⟨2, ![2048, 1024]⟩
abbrev S256x2048 : Shape := ⟨2, ![256, 2048]⟩
abbrev S256x1 : Shape := ⟨2, ![256, 1]⟩

abbrev nBuf : Space → Nat
  | .hbm => 23
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x256, .f32⟩
  | .hbm, ⟨2, _⟩ => ⟨S1024x256, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S256x1024, .f32⟩
  | .hbm, ⟨9, _⟩ => ⟨S1024, .f32⟩
  | .hbm, ⟨10, _⟩ => ⟨S1024x256, .bf16⟩
  | .hbm, ⟨11, _⟩ => ⟨S1024x1024, .bf16⟩
  | .hbm, ⟨12, _⟩ => ⟨S1024x256, .bf16⟩
  | .hbm, ⟨13, _⟩ => ⟨S1024x1024, .bf16⟩
  | .hbm, ⟨14, _⟩ => ⟨S1024x256, .bf16⟩
  | .hbm, ⟨15, _⟩ => ⟨S256x1024, .bf16⟩
  | .hbm, ⟨16, _⟩ => ⟨S1x1024, .f32⟩
  | .hbm, ⟨17, _⟩ => ⟨S1x256, .f32⟩
  | .hbm, ⟨18, _⟩ => ⟨S1x1024, .f32⟩
  | .hbm, ⟨19, _⟩ => ⟨S4x2048x256, .bf16⟩
  | .hbm, ⟨20, _⟩ => ⟨S4x2048x1024, .bf16⟩
  | .hbm, ⟨21, _⟩ => ⟨S4x2048x1024, .f32⟩
  | .hbm, ⟨22, _⟩ => ⟨S4x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1024x256, .bf16⟩
  | .local _ .vmem, ⟨3, _⟩ => ⟨S1024x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x2048x256, .bf16⟩
  | .local _ .vmem, ⟨11, _⟩ => ⟨S1x2048x256, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1024x256, .bf16⟩
  | .local _ .vmem, ⟨15, _⟩ => ⟨S1024x1024, .bf16⟩
  | .local _ .vmem, ⟨16, _⟩ => ⟨S1x1024, .f32⟩
  | .local _ .vmem, ⟨17, _⟩ => ⟨S1024x256, .bf16⟩
  | .local _ .vmem, ⟨18, _⟩ => ⟨S1x256, .f32⟩
  | .local _ .vmem, ⟨19, _⟩ => ⟨S256x1024, .bf16⟩
  | .local _ .vmem, ⟨20, _⟩ => ⟨S1x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x2048, .f32⟩
  | .local _ .vmem, ⟨24, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22
abbrev cc1_sem11_0 : DmaSem sig := 23
abbrev cc1_sem11_1 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S256x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x256x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

class Facts₀ : Prop where
  bitsLt_bf16_f32 : FTy.bits .bf16 < FTy.bits .f32
  shapeCasts_S1024_S1x1024 : S1024.ShapeCasts S1x1024
  shapeCasts_S256_S1x256 : S256.ShapeCasts S1x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S256x1024_S1x256x1024 : S256x1024.ShapeCasts S1x256x1024
  dot_S512x1024_S1024x256_S512x256_1_0_0_1_n_n_wf : DotDims.WF S512x1024 S1024x256 S512x256 [1] [0] [0] [1] [] []
  dot_S512x1024_S1024x1024_S512x1024_1_0_0_1_n_n_wf : DotDims.WF S512x1024 S1024x1024 S512x1024 [1] [0] [0] [1] [] []
  dot_S256x1024_S1024x256_S256x256_1_0_0_1_n_n_wf : DotDims.WF S256x1024 S1024x256 S256x256 [1] [0] [0] [1] [] []
  dot_S256x256_S2048x256_S256x2048_1_1_0_0_n_n_wf : DotDims.WF S256x256 S2048x256 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S4x2048x256.size a
  hwx0_3 : ∀ i : grid0.Coords, EltTy.bits .bf16 = 32 ∨ (Rect.block (s := S4x2048x256) S1x512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .f32 = 32 ∨ (Rect.block (s := S4x2048x1024) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S4x2048x256.size a
  hwx1_1 : ∀ i : grid1.Coords, EltTy.bits .bf16 = 32 ∨ (Rect.block (s := S4x2048x256) S1x2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .bf16 = 32 ∨ (Rect.block (s := S1024x256) S1024x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S1024x256.size a
  hwx1_6 : ∀ i : grid1.Coords, EltTy.bits .bf16 = 32 ∨ (Rect.block (s := S1024x256) S1024x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x1024.size a ≤ S256x1024.size a
  hwx1_8 : ∀ i : grid1.Coords, EltTy.bits .bf16 = 32 ∨ (Rect.block (s := S256x1024) S256x1024.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x256x1024.size a ≤ S4x2048x1024.size a
  hwx1_10 : ∀ i : grid1.Coords, EltTy.bits .f32 = 32 ∨ (Rect.block (s := S4x2048x1024) S1x256x1024.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x256x2048.size a ≤ S4x2048x2048.size a
  hwx1_11 : ∀ i : grid1.Coords, EltTy.bits .f32 = 32 ∨ (Rect.block (s := S4x2048x2048) S1x256x2048.size (cc1_transform_11 i) (hinb1_11 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1x512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_1) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1024x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S256x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10_0) S1x256x1024.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v10_1) S1x256x2048.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x256 : Shape := ⟨2, ![1024, 256]⟩
abbrev S1024x1024 : Shape := ⟨2, ![1024, 1024]⟩
abbrev S1024 : Shape := ⟨1, ![1024]⟩
abbrev S256 : Shape := ⟨1, ![256]⟩
abbrev S256x1024 : Shape := ⟨2, ![256, 1024]⟩
abbrev S4x2048x256 : Shape := ⟨3, ![4, 2048, 256]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x1024 : Shape := ⟨3, ![1, 1, 1024]⟩
abbrev S1x1x256 : Shape := ⟨3, ![1, 1, 256]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x256, .f32⟩
  | .hbm, ⟨2, _⟩ => ⟨S1024x256, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S256x1024, .f32⟩
  | .hbm, ⟨9, _⟩ => ⟨S1024, .f32⟩
  | .hbm, ⟨10, _⟩ => ⟨S4x2048x256, .f32⟩
  | .hbm, ⟨11, _⟩ => ⟨S4x2048x256, .f32⟩
  | .hbm, ⟨12, _⟩ => ⟨S4x2048x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x256, .f32⟩
  | .hbm, ⟨41, _⟩ => ⟨S1x1x256, .f32⟩
  | .hbm, ⟨42, _⟩ => ⟨S4x2048x256, .f32⟩
  | .hbm, ⟨43, _⟩ => ⟨S4x2048x256, .f32⟩
  | .hbm, ⟨44, _⟩ => ⟨S_, .f32⟩
  | .hbm, ⟨45, _⟩ => ⟨S4x2048x256, .f32⟩
  | .hbm, ⟨46, _⟩ => ⟨S4x2048x256, .f32⟩
  | .hbm, ⟨47, _⟩ => ⟨S4x2048x1024, .f32⟩
  | .hbm, ⟨48, _⟩ => ⟨S1x1x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  bcast_S_S4x2048x256 : S_.BroadcastsInDim S4x2048x256 (![] : Fin 0 → Fin S4x2048x256.rank)
  dot_S4x2048x1024_S1024x256_S4x2048x256_2_0_01_1_n_n_wf : DotDims.WF S4x2048x1024 S1024x256 S4x2048x256 [2] [0] [0, 1] [1] [] []
  dot_S4x2048x1024_S1024x1024_S4x2048x1024_2_0_01_1_n_n_wf : DotDims.WF S4x2048x1024 S1024x1024 S4x2048x1024 [2] [0] [0, 1] [1] [] []
  dot_S4x2048x256_S4x2048x256_S4x2048x2048_2_2_1_1_0_0_wf : DotDims.WF S4x2048x256 S4x2048x256 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x256_S256x1024_S4x2048x1024_2_0_01_1_n_n_wf : DotDims.WF S4x2048x256 S256x1024 S4x2048x1024 [2] [0] [0, 1] [1] [] []

variable [Facts₀]

def dot_S4x2048x1024_S1024x256_S4x2048x256_2_0_01_1_n_n : DotDims S4x2048x1024 S1024x256 S4x2048x256 where
  lhsContracting := [2]
  rhsContracting := [0]
  lhsNonContracting := [0, 1]
  rhsNonContracting := [1]
  lhsBatch := []
  rhsBatch := []
  wf := dot_S4x2048x1024_S1024x256_S4x2048x256_2_0_01_1_n_n_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x256_S4x2048x256_S4x2048x2048_2_2_1_1_0_0 : DotDims S4x2048x256 S4x2048x256 S4x2048x2048 where
  lhsContracting := [2]
  rhsContracting := [2]
  lhsNonContracting := [1]
  rhsNonContracting := [1]
  lhsBatch := [0]
  rhsBatch := [0]
  wf := dot_S4x2048x256_S4x2048x256_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x256_S256x1024_S4x2048x1024_2_0_01_1_n_n : DotDims S4x2048x256 S256x1024 S4x2048x1024 where
  lhsContracting := [2]
  rhsContracting := [0]
  lhsNonContracting := [0, 1]
  rhsNonContracting := [1]
  lhsBatch := []
  rhsBatch := []
  wf := dot_S4x2048x256_S256x1024_S4x2048x1024_2_0_01_1_n_n_wf

class Facts : Prop extends Facts₀ where

variable [Facts]
-- ==== Proof.Spec.lean ====
/-
  One transformer layer over the extended reals, entry by entry.

  A batch of four sequences of 2048 rows of width 1024 is projected to queries and keys (width 256) and to values
  (width 1024).  A row's scores against all 2048 keys of its own sequence are scaled by 1/16 = 1/sqrt 256; the
  scores are turned into weights by the softmax along the key axis (subtract the row's maximum, exponentiate,
  divide by the row's sum); the weights average the values; the average goes through an output projection with a
  bias and is added to the input row (first residual); the result goes through a width-256 hidden layer with a
  bias and a clamp at zero, back to width 1024 with a bias, and is added again (second residual).

  Everything after the scores is ONE family of functions of the score table (`attnW`, `layerOut`).  The only place
  where two computations of the layer may differ is where the factor 1/16 sits: on each query entry before the
  contraction (`scoresIn`) or on the contracted sum (`scoresOut`).  The two agree on all extended reals: the
  product is commutative and associative, and multiplying by a finite non-negative number distributes over any
  sum of extended reals, infinite terms included (`scores_eq`).
-/
import Idealize.ShloMosaic.PureOps.Ideal
import Idealize.ShloMosaic.Lib.ValueIdx

noncomputable section

namespace Cert.Layer

open Idealize.ShloMosaic Idealize.ShloMosaic.ValueIdx

/-! ## The float words the two programs spell -/

/-- The word of minus infinity denotes the bottom of the extended reals. -/
theorem ofBits_neg_inf : Ideal.ofBits .f32 0xFF800000#32 = ⊥ := by
  simp [Ideal.ofBits, Ideal.ieee]

/-- The word of 0.0625 denotes the real 1/16. -/
theorem ofBits_sixteenth : Ideal.ofBits .f32 0x3D800000#32 = ((1 / 16 : ℝ) : EReal) := by
  simp [Ideal.ofBits, Ideal.ieee, -EReal.coe_mul]; norm_num

/-- The word of 1.0 denotes 1. -/
theorem ofBits_one : Ideal.ofBits .f32 0x3F800000#32 = ((1 : ℝ) : EReal) := by
  simp [Ideal.ofBits, Ideal.ieee, -EReal.coe_mul]; norm_num

/-- The word of 256.0 denotes the real 256. -/
theorem ofBits_256 : Ideal.ofBits .f32 0x43800000#32 = ((256 : ℝ) : EReal) := by
  simp [Ideal.ofBits, Ideal.ieee, -EReal.coe_mul]; norm_num

/-- One over the square root of 256 is 1/16: the square root of 256 is 16. -/
theorem one_div_sqrt_256 :
    Ideal.div (Ideal.ofBits .f32 0x3F800000#32) (Ideal.sqrt (Ideal.ofBits .f32 0x43800000#32)) = ((1 / 16 : ℝ) : EReal) := by
  have h16 : Real.sqrt 256 = 16 := by
    rw [show (256 : ℝ) = 16 ^ 2 by norm_num]
    exact Real.sqrt_sq (by norm_num)
  rw [ofBits_one, ofBits_256, Ideal.sqrt_coe, if_neg (by norm_num), h16, Ideal.div_coe (by norm_num : (16 : ℝ) ≠ 0)]
  rw [← EReal.coe_mul]; norm_num

/-! ## The arrays -/

abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

/-- A table of scores: batch, query row, key row. -/
abbrev Scores := Fin 4 → Fin 2048 → Fin 2048 → EReal

/-- Rows times a weight matrix of 256 columns: entry `(b, s, k)` is the sum over the 1024 input columns. -/
def proj256 (X : Arr3 4 2048 1024) (W : Arr2 1024 256) (b : Fin 4) (s : Fin 2048) (k : Fin 256) : EReal :=
  ∑ d : Fin 1024, X (ix3 b s d) * W (ix2 d k)

/-- Rows times a weight matrix of 1024 columns. -/
def proj1024 (X : Arr3 4 2048 1024) (W : Arr2 1024 1024) (b : Fin 4) (s : Fin 2048) (e : Fin 1024) : EReal :=
  ∑ d : Fin 1024, X (ix3 b s d) * W (ix2 d e)

/-! ## The scores, with the scale inside or outside the contraction -/

/-- Each query entry scaled by `c`, then contracted with the key row. -/
def scoresIn (c : EReal) (Q K : Fin 4 → Fin 2048 → Fin 256 → EReal) : Scores :=
  fun b i t => ∑ k : Fin 256, (Q b i k * c) * K b t k

/-- The query row contracted with the key row, then scaled by `c`. -/
def scoresOut (c : EReal) (Q K : Fin 4 → Fin 2048 → Fin 256 → EReal) : Scores :=
  fun b i t => (∑ k : Fin 256, Q b i k * K b t k) * c

/-- A finite non-negative factor moves out of a finite sum of extended reals, whatever the terms. -/
theorem sum_mul_of_nonneg_of_ne_top {ι : Type} (s : Finset ι) (f : ι → EReal) {c : EReal} (h0 : 0 ≤ c) (ht : c ≠ ⊤) :
    ∑ k ∈ s, f k * c = (∑ k ∈ s, f k) * c := by
  classical
  induction s using Finset.induction_on with
  | empty => simp
  | insert a s ha ih =>
    rw [Finset.sum_insert ha, Finset.sum_insert ha, ih, EReal.right_distrib_of_nonneg_of_ne_top h0 ht]

/-- The two placements of a finite non-negative scale give the same scores. -/
theorem scores_eq {c : EReal} (h0 : 0 ≤ c) (ht : c ≠ ⊤) (Q K : Fin 4 → Fin 2048 → Fin 256 → EReal) :
    scoresIn c Q K = scoresOut c Q K := by
  funext b i t
  unfold scoresIn scoresOut
  rw [← sum_mul_of_nonneg_of_ne_top _ _ h0 ht]
  exact Finset.sum_congr rfl fun k _ => mul_right_comm _ _ _

/-- 1/16 is such a factor. -/
theorem sixteenth_nonneg : (0 : EReal) ≤ ((1 / 16 : ℝ) : EReal) := EReal.coe_nonneg.mpr (by norm_num)
theorem sixteenth_ne_top : ((1 / 16 : ℝ) : EReal) ≠ ⊤ := EReal.coe_ne_top _

/-! ## From the scores to the layer's two results -/

section Tail
variable (S : Scores)

/-- The largest score of a row (the bottom element if there were none). -/
def rowMax (b : Fin 4) (i : Fin 2048) : EReal := (Finset.univ : Finset (Fin 2048)).fold max ⊥ (fun t => S b i t)

/-- The exponential of a score after the row's maximum is taken off. -/
def expW (b : Fin 4) (i : Fin 2048) (t : Fin 2048) : EReal := Ideal.exp (S b i t - rowMax S b i)

/-- The row's sum of those exponentials. -/
def rowSum (b : Fin 4) (i : Fin 2048) : EReal := ∑ t : Fin 2048, expW S b i t

/-- The attention weights: the softmax of the scores along the key axis. -/
def attnW (b : Fin 4) (i : Fin 2048) (t : Fin 2048) : EReal := Ideal.div (expW S b i t) (rowSum S b i)

variable (X : Arr3 4 2048 1024) (Vp : Fin 4 → Fin 2048 → Fin 1024 → EReal) (Wo : Arr2 1024 1024) (Bo : Arr1 1024)
  (W1 : Arr2 1024 256) (B1 : Arr1 256) (W2 : Arr2 256 1024) (B2 : Arr1 1024)

/-- The weighted average of the value rows. -/
def context (b : Fin 4) (i : Fin 2048) (e : Fin 1024) : EReal := ∑ t : Fin 2048, attnW S b i t * Vp b t e

/-- The output projection of the average. -/
def contextOut (b : Fin 4) (i : Fin 2048) (o : Fin 1024) : EReal := ∑ e : Fin 1024, context S Vp b i e * Wo (ix2 e o)

/-- The first residual: the input row plus the projected average and its bias. -/
def resid (b : Fin 4) (i : Fin 2048) (o : Fin 1024) : EReal := X (ix3 b i o) + (contextOut S Vp Wo b i o + Bo (ix1 o))

/-- The hidden layer: projection, bias, clamp at zero. -/
def hidden (b : Fin 4) (i : Fin 2048) (k : Fin 256) : EReal :=
  max ((∑ d : Fin 1024, resid S X Vp Wo Bo b i d * W1 (ix2 d k)) + B1 (ix1 k)) 0

/-- The feed-forward block's projection back to the model width. -/
def feedFwd (b : Fin 4) (i : Fin 2048) (o : Fin 1024) : EReal := ∑ k : Fin 256, hidden S X Vp Wo Bo W1 B1 b i k * W2 (ix2 k o)

/-- The layer's output: the first residual plus the feed-forward block and its bias. -/
def layerOut (b : Fin 4) (i : Fin 2048) (o : Fin 1024) : EReal :=
  resid S X Vp Wo Bo b i o + (feedFwd S X Vp Wo Bo W1 B1 W2 b i o + B2 (ix1 o))

end Tail

end Cert.Layer

end
-- ==== Proof.RefSide.lean ====
/-
  The reference program read entry by entry.

  Each stage of the reference is read at an index built from its coordinates and identified with the matching
  function of the layer's mathematics: the three projections, the scaled scores, the row maximum, the exponentials,
  the row sum, the attention weights, the weighted average of the values, the output projection with its bias, the
  first residual, the hidden layer with its clamp at zero, the projection back with its bias, and the second residual.
  Nothing is rearranged: every step is an unfolding, an equation between two indices with the same coordinates, or a
  sum taken term by term.
-/
import proofs.«117887_j35158602285745_2_alg».proof.Proof.Gen.ReferenceIdeal.Read
import proofs.«117887_j35158602285745_2_alg».proof.Proof.Spec
import Idealize.ShloMosaic.PureOps.Reduce
import Idealize.ShloMosaic.PureOps.Ideal.Laws
import Idealize.ShloMosaic.Lib.ValueIdx

noncomputable section

namespace Cert.ReferenceIdeal.Bridge

open Cert.ReferenceIdeal Cert.ReferenceIdeal.Gen Cert.ReferenceIdeal.Read Idealize.ShloMosaic Idealize.ShloMosaic.ValueIdx
open Cert.Layer

/-! ## The three projections -/

/-- The queries: the first product is the projection of the input by the query weights. -/
theorem q_apply (x : S4x2048x1024.Idx → EReal) (wq : S1024x256.Idx → EReal) (b : Fin 4) (s : Fin 2048) (k : Fin 256) :
    val_main_v0 (F := Ideal) x wq (ix3 b s k) = proj256 x wq b s k := by
  rw [val_main_v0_apply]
  unfold proj256
  refine Finset.sum_congr rfl fun d _ => ?_
  have e1 : lidx_main_v0 (ix3 b s k) d = ix3 b s d := funext fun a => by
    match a with | ⟨0, _⟩ => rfl | ⟨1, _⟩ => rfl | ⟨2, _⟩ => rfl
  have e2 : ridx_main_v0 (ix3 b s k) d = ix2 d k := funext fun a => by
    match a with | ⟨0, _⟩ => rfl | ⟨1, _⟩ => rfl
  rw [e1, e2]

/-- The keys: the second product is the projection of the input by the key weights. -/
theorem k_apply (x : S4x2048x1024.Idx → EReal) (wk : S1024x256.Idx → EReal) (b : Fin 4) (s : Fin 2048) (k : Fin 256) :
    val_main_v1 (F := Ideal) x wk (ix3 b s k) = proj256 x wk b s k := by
  rw [val_main_v1_apply]
  unfold proj256
  refine Finset.sum_congr rfl fun d _ => ?_
  have e1 : lidx_main_v1 (ix3 b s k) d = ix3 b s d := funext fun a => by
    match a with | ⟨0, _⟩ => rfl | ⟨1, _⟩ => rfl | ⟨2, _⟩ => rfl
  have e2 : ridx_main_v1 (ix3 b s k) d = ix2 d k := funext fun a => by
    match a with | ⟨0, _⟩ => rfl | ⟨1, _⟩ => rfl
  rw [e1, e2]

/-- The values: the third product is the projection of the input by the value weights. -/
theorem v_apply (x : S4x2048x1024.Idx → EReal) (wv : S1024x1024.Idx → EReal) (b : Fin 4) (s : Fin 2048) (e : Fin 1024) :
    val_main_v2 (F := Ideal) x wv (ix3 b s e) = proj1024 x wv b s e := by
  rw [val_main_v2_apply]
  unfold proj1024
  refine Finset.sum_congr rfl fun d _ => ?_
  have e1 : lidx_main_v2 (ix3 b s e) d = ix3 b s d := funext fun a => by
    match a with | ⟨0, _⟩ => rfl | ⟨1, _⟩ => rfl | ⟨2, _⟩ => rfl
  have e2 : ridx_main_v2 (ix3 b s e) d = ix2 d e := funext fun a => by
    match a with | ⟨0, _⟩ => rfl | ⟨1, _⟩ => rfl
  rw [e1, e2]

/-! ## The scores -/

/-- The scale spread over the score table is 1/16 everywhere: one over the square root of 256. -/
theorem scale_apply (j : S4x2048x2048.Idx) : val_main_v6 (F := Ideal) j = ((1 / 16 : ℝ) : EReal) := by
  rw [val_main_v6_apply, val_main_v4_apply, val_main_cst_0_apply, val_main_v3_apply, val_main_cst_apply]
  exact one_div_sqrt_256

/-- The scaled scores: the query row contracted with the key row, then multiplied by 1/16. -/
theorem scores_apply (x : S4x2048x1024.Idx → EReal) (wq wk : S1024x256.Idx → EReal) (b : Fin 4) (i t : Fin 2048) :
    val_main_v7 (F := Ideal) x wq wk (ix3 b i t)
      = scoresOut ((1 / 16 : ℝ) : EReal) (proj256 x wq) (proj256 x wk) b i t := by
  rw [val_main_v7_apply, scale_apply, val_main_v5_apply]
  unfold scoresOut
  refine congrArg (· * (((1 / 16 : ℝ) : EReal))) (Finset.sum_congr rfl fun k _ => ?_)
  have e1 : lidx_main_v5 (ix3 b i t) k = ix3 b i k := funext fun a => by
    match a with | ⟨0, _⟩ => rfl | ⟨1, _⟩ => rfl | ⟨2, _⟩ => rfl
  have e2 : ridx_main_v5 (ix3 b i t) k = ix3 b t k := funext fun a => by
    match a with | ⟨0, _⟩ => rfl | ⟨1, _⟩ => rfl | ⟨2, _⟩ => rfl
  rw [e1, e2, q_apply, k_apply]

/-! ## The row maximum -/

/-- Dropping the key axis of the score table leaves the table of rows. -/
theorem reduces_keys : S4x2048x2048.Reduces [2] S4x2048 := by decide

/-- A row's index with the key coordinate put back is the score's index. -/
theorem lift_keys (b : Fin 4) (i t : Fin 2048) : reduces_keys.lift (ix2 b i) t = ix3 b i t := by
  funext c
  apply Fin.ext
  show reduces_keys.liftVal (ix2 b i) t.val c = (ix3 b i t c).val
  unfold Shape.Reduces.liftVal
  match c with
  | ⟨0, _⟩ => rfl
  | ⟨1, _⟩ => rfl
  | ⟨2, _⟩ => rfl

/-- The row maximum: the larger of minus infinity and the fold of the maximum, from minus infinity, over the row's
    scores, is the row's largest score. -/
theorem rowmax_apply (x : S4x2048x1024.Idx → EReal) (wq wk : S1024x256.Idx → EReal) (b : Fin 4) (i : Fin 2048) :
    val_main_v10 (F := Ideal) x wq wk (ix2 b i)
      = rowMax (scoresOut ((1 / 16 : ℝ) : EReal) (proj256 x wq) (proj256 x wk)) b i := by
  rw [val_main_v10_apply, val_main_v9_apply, val_main_cst_2_apply]
  unfold val_main_v8
  rw [Host.reduce_eq_fold_single FloatOps.maximumf _ _ reducesTo_S4x2048x2048_S4x2048_d2 reduces_keys h_S_,
    val_main_cst_1_apply]
  show max (Ideal.ofBits .f32 0xFF800000#32) (Finset.fold max (Ideal.ofBits .f32 0xFF800000#32) _ _) = _
  rw [ofBits_neg_inf, max_bot_left]
  unfold rowMax
  exact Finset.fold_congr fun t _ => (congrArg _ (lift_keys b i t)).trans (scores_apply x wq wk b i t)

/-! ## The softmax -/

/-- The row maximum spread back along the key axis. -/
theorem rowmax_bcast_apply (x : S4x2048x1024.Idx → EReal) (wq wk : S1024x256.Idx → EReal) (b : Fin 4) (i t : Fin 2048) :
    val_main_v12 (F := Ideal) x wq wk (ix3 b i t)
      = rowMax (scoresOut ((1 / 16 : ℝ) : EReal) (proj256 x wq) (proj256 x wk)) b i := by
  rw [val_main_v12_apply, val_main_v11_apply]
  have e : idx_main_v11 (idx_main_v12 (ix3 b i t)) = ix2 b i := funext fun a => by
    match a with | ⟨0, _⟩ => rfl | ⟨1, _⟩ => rfl
  rw [e, rowmax_apply]

/-- The exponential of a score after the row's maximum is taken off. -/
theorem exp_apply (x : S4x2048x1024.Idx → EReal) (wq wk : S1024x256.Idx → EReal) (b : Fin 4) (i t : Fin 2048) :
    val_main_v14 (F := Ideal) x wq wk (ix3 b i t)
      = expW (scoresOut ((1 / 16 : ℝ) : EReal) (proj256 x wq) (proj256 x wk)) b i t := by
  rw [val_main_v14_apply, val_main_v13_apply, scores_apply, rowmax_bcast_apply]
  rfl

/-- The row sum: zero plus the sum of the row's exponentials. -/
theorem rowsum_apply (x : S4x2048x1024.Idx → EReal) (wq wk : S1024x256.Idx → EReal) (b : Fin 4) (i : Fin 2048) :
    val_main_v15 (F := Ideal) x wq wk (ix2 b i)
      = rowSum (scoresOut ((1 / 16 : ℝ) : EReal) (proj256 x wq) (proj256 x wk)) b i := by
  rw [val_main_v15_apply, val_main_cst_3_apply]
  show Ideal.ofBits .f32 0x00000000#32 + _ = _
  rw [Ideal.ofBits_zero_f32, zero_add]
  unfold rowSum
  refine Finset.sum_congr rfl fun t _ => ?_
  have e : idx_main_v15 (ix2 b i) t = ix3 b i t := funext fun a => by
    match a with | ⟨0, _⟩ => rfl | ⟨1, _⟩ => rfl | ⟨2, _⟩ => rfl
  rw [e, exp_apply]

/-- The row sum spread back along the key axis. -/
theorem rowsum_bcast_apply (x : S4x2048x1024.Idx → EReal) (wq wk : S1024x256.Idx → EReal) (b : Fin 4) (i t : Fin 2048) :
    val_main_v17 (F := Ideal) x wq wk (ix3 b i t)
      = rowSum (scoresOut ((1 / 16 : ℝ) : EReal) (proj256 x wq) (proj256 x wk)) b i := by
  rw [val_main_v17_apply, val_main_v16_apply]
  have e : idx_main_v16 (idx_main_v17 (ix3 b i t)) = ix2 b i := funext fun a => by
    match a with | ⟨0, _⟩ => rfl | ⟨1, _⟩ => rfl
  rw [e, rowsum_apply]

/-- The reference's attention weights are the softmax of the scaled scores along the key axis. -/
theorem ref_attn_apply (x : S4x2048x1024.Idx → EReal) (wq wk : S1024x256.Idx → EReal) (b : Fin 4) (i t : Fin 2048) :
    Read.val_main_v18 (F := Ideal) x wq wk (ValueIdx.ix3 b i t)
      = attnW (scoresOut ((1 / 16 : ℝ) : EReal) (proj256 x wq) (proj256 x wk)) b i t := by
  rw [val_main_v18_apply, exp_apply, rowsum_bcast_apply]
  rfl

/-! ## The attention block's output and the first residual -/

/-- The weighted average of the value rows. -/
theorem context_apply (x : S4x2048x1024.Idx → EReal) (wq wk : S1024x256.Idx → EReal) (wv : S1024x1024.Idx → EReal)
    (b : Fin 4) (i : Fin 2048) (e : Fin 1024) :
    val_main_v19 (F := Ideal) x wq wk wv (ix3 b i e)
      = context (scoresOut ((1 / 16 : ℝ) : EReal) (proj256 x wq) (proj256 x wk)) (proj1024 x wv) b i e := by
  rw [val_main_v19_apply]
  unfold context
  refine Finset.sum_congr rfl fun t _ => ?_
  have e1 : lidx_main_v19 (ix3 b i e) t = ix3 b i t := funext fun a => by
    match a with | ⟨0, _⟩ => rfl | ⟨1, _⟩ => rfl | ⟨2, _⟩ => rfl
  have e2 : ridx_main_v19 (ix3 b i e) t = ix3 b t e := funext fun a => by
    match a with | ⟨0, _⟩ => rfl | ⟨1, _⟩ => rfl | ⟨2, _⟩ => rfl
  rw [e1, e2, ref_attn_apply, v_apply]

/-- The output projection of the average. -/
theorem contextOut_apply (x : S4x2048x1024.Idx → EReal) (wq wk : S1024x256.Idx → EReal) (wv wo : S1024x1024.Idx → EReal)
    (b : Fin 4) (i : Fin 2048) (o : Fin 1024) :
    val_main_v20 (F := Ideal) x wq wk wv wo (ix3 b i o)
      = contextOut (scoresOut ((1 / 16 : ℝ) : EReal) (proj256 x wq) (proj256 x wk)) (proj1024 x wv) wo b i o := by
  rw [val_main_v20_apply]
  unfold contextOut
  refine Finset.sum_congr rfl fun e _ => ?_
  have e1 : lidx_main_v20 (ix3 b i o) e = ix3 b i e := funext fun a => by
    match a with | ⟨0, _⟩ => rfl | ⟨1, _⟩ => rfl | ⟨2, _⟩ => rfl
  have e2 : ridx_main_v20 (ix3 b i o) e = ix2 e o := funext fun a => by
    match a with | ⟨0, _⟩ => rfl | ⟨1, _⟩ => rfl
  rw [e1, e2, context_apply]

/-- The output bias spread over batch and rows. -/
theorem bo_apply (bo : S1024.Idx → EReal) (b : Fin 4) (i : Fin 2048) (o : Fin 1024) :
    val_main_v22 (F := Ideal) bo (ix3 b i o) = bo (ix1 o) := by
  rw [val_main_v22_apply, val_main_v21_apply]
  have e : idx_main_v21 (idx_main_v22 (ix3 b i o)) = ix1 o := funext fun a => by
    match a with | ⟨0, _⟩ => rfl
  rw [e]

/-- The first residual: the input row plus the projected average and its bias. -/
theorem resid_apply (x : S4x2048x1024.Idx → EReal) (wq wk : S1024x256.Idx → EReal) (wv wo : S1024x1024.Idx → EReal)
    (bo : S1024.Idx → EReal) (b : Fin 4) (i : Fin 2048) (o : Fin 1024) :
    val_main_v24 (F := Ideal) x wq wk wv wo bo (ix3 b i o)
      = resid (scoresOut ((1 / 16 : ℝ) : EReal) (proj256 x wq) (proj256 x wk)) x (proj1024 x wv) wo bo b i o := by
  rw [val_main_v24_apply, val_main_v23_apply, contextOut_apply, bo_apply]
  rfl

/-! ## The feed-forward block and the second residual -/

/-- The hidden bias spread over batch and rows. -/
theorem b1_apply (b1 : S256.Idx → EReal) (b : Fin 4) (i : Fin 2048) (k : Fin 256) :
    val_main_v27 (F := Ideal) b1 (ix3 b i k) = b1 (ix1 k) := by
  rw [val_main_v27_apply, val_main_v26_apply]
  have e : idx_main_v26 (idx_main_v27 (ix3 b i k)) = ix1 k := funext fun a => by
    match a with | ⟨0, _⟩ => rfl
  rw [e]

/-- The zero the clamp compares with. -/
theorem zero_apply (j : S4x2048x256.Idx) : val_main_call0_v0 (F := Ideal) j = 0 := by
  rw [val_main_call0_v0_apply, val_main_call0_cst_apply]
  exact Ideal.ofBits_zero_f32

/-- The hidden layer: projection of the first residual, bias, clamp at zero. -/
theorem hidden_apply (x : S4x2048x1024.Idx → EReal) (wq wk : S1024x256.Idx → EReal) (wv wo : S1024x1024.Idx → EReal)
    (bo : S1024.Idx → EReal) (w1 : S1024x256.Idx → EReal) (b1 : S256.Idx → EReal) (b : Fin 4) (i : Fin 2048) (k : Fin 256) :
    val_main_v29 (F := Ideal) x wq wk wv wo bo w1 b1 (ix3 b i k)
      = Cert.Layer.hidden (scoresOut ((1 / 16 : ℝ) : EReal) (proj256 x wq) (proj256 x wk)) x (proj1024 x wv) wo bo w1 b1 b i k := by
  rw [val_main_v29_apply, zero_apply, val_main_v28_apply, b1_apply, val_main_v25_apply]
  unfold Cert.Layer.hidden
  refine congrArg (fun s => max (s + b1 (ix1 k)) 0) (Finset.sum_congr rfl fun d _ => ?_)
  have e1 : lidx_main_v25 (ix3 b i k) d = ix3 b i d := funext fun a => by
    match a with | ⟨0, _⟩ => rfl | ⟨1, _⟩ => rfl | ⟨2, _⟩ => rfl
  have e2 : ridx_main_v25 (ix3 b i k) d = ix2 d k := funext fun a => by
    match a with | ⟨0, _⟩ => rfl | ⟨1, _⟩ => rfl
  rw [e1, e2, resid_apply]

/-- The projection of the hidden layer back to the model width. -/
theorem feedFwd_apply (x : S4x2048x1024.Idx → EReal) (wq wk : S1024x256.Idx → EReal) (wv wo : S1024x1024.Idx → EReal)
    (bo : S1024.Idx → EReal) (w1 : S1024x256.Idx → EReal) (b1 : S256.Idx → EReal) (w2 : S256x1024.Idx → EReal)
    (b : Fin 4) (i : Fin 2048) (o : Fin 1024) :
    val_main_v30 (F := Ideal) x wq wk wv wo bo w1 b1 w2 (ix3 b i o)
      = feedFwd (scoresOut ((1 / 16 : ℝ) : EReal) (proj256 x wq) (proj256 x wk)) x (proj1024 x wv) wo bo w1 b1 w2 b i o := by
  rw [val_main_v30_apply]
  unfold feedFwd
  refine Finset.sum_congr rfl fun k _ => ?_
  have e1 : lidx_main_v30 (ix3 b i o) k = ix3 b i k := funext fun a => by
    match a with | ⟨0, _⟩ => rfl | ⟨1, _⟩ => rfl | ⟨2, _⟩ => rfl
  have e2 : ridx_main_v30 (ix3 b i o) k = ix2 k o := funext fun a => by
    match a with | ⟨0, _⟩ => rfl | ⟨1, _⟩ => rfl
  rw [e1, e2, hidden_apply]

/-- The last bias spread over batch and rows. -/
theorem b2_apply (b2 : S1024.Idx → EReal) (b : Fin 4) (i : Fin 2048) (o : Fin 1024) :
    val_main_v32 (F := Ideal) b2 (ix3 b i o) = b2 (ix1 o) := by
  rw [val_main_v32_apply, val_main_v31_apply]
  have e : idx_main_v31 (idx_main_v32 (ix3 b i o)) = ix1 o := funext fun a => by
    match a with | ⟨0, _⟩ => rfl
  rw [e]

/-- The reference's output is the layer's output: the first residual plus the feed-forward block and its bias. -/
theorem ref_out_apply (x : S4x2048x1024.Idx → EReal) (wq wk : S1024x256.Idx → EReal) (wv wo : S1024x1024.Idx → EReal)
    (bo : S1024.Idx → EReal) (w1 : S1024x256.Idx → EReal) (b1 : S256.Idx → EReal) (w2 : S256x1024.Idx → EReal)
    (b2 : S1024.Idx → EReal) (b : Fin 4) (i : Fin 2048) (o : Fin 1024) :
    Read.val_main_v34 (F := Ideal) x wq wk wv wo bo w1 b1 w2 b2 (ValueIdx.ix3 b i o)
      = layerOut (scoresOut ((1 / 16 : ℝ) : EReal) (proj256 x wq) (proj256 x wk)) x (proj1024 x wv) wo bo w1 b1 w2 b2 b i o := by
  rw [val_main_v34_apply, val_main_v33_apply, resid_apply, feedFwd_apply, b2_apply]
  rfl

end Cert.ReferenceIdeal.Bridge

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Blocks0.lean ====
/-
  The first region's body at one entry.

  At a grid point the body holds a block of 512 rows of the input (as a 1 x 512 x 1024 array) and a whole weight
  matrix, and stores the rows times the matrix as a 1 x 512 x n block.  At the exact instance the changes of float
  format are the identity and the product into a zero accumulator is the contraction, so entry (0, r, k) of what is
  stored is the sum over the 1024 input columns d of block(0, r, d) * weight(d, k): for the keys (n = 256) and for the
  values (n = 1024).
-/
import proofs.«117887_j35158602285745_2_alg».proof.Proof.Gen.KernelIdeal.Skeleton
import proofs.«117887_j35158602285745_2_alg».proof.Proof.LibMatmul
import Idealize.ShloMosaic.Lib.ValueLayout
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx
open Facts₀ Facts

/-- The key block: rows of the input block times the key weights. -/
theorem keys_block (x0 : FVec Ideal S1x512x1024 .f32) (w : FVec Ideal S1024x256 .bf16) (r : Fin 512) (k : Fin 256) :
    k0_pay2 (F := Ideal) x0 w (ix3 (0 : Fin 1) r k) = ∑ d : Fin 1024, x0 (ix3 (0 : Fin 1) r d) * w (ix2 d k) := by
  unfold k0_pay2 k0_pay1
  refine (shapeCast_ab_1ab_apply _ _ (0 : Fin 1) r k).trans ?_
  refine (Cert.MatmulAt.matmul_zero_plain_apply Facts₀.dot_S512x1024_S1024x256_S512x256_1_0_0_1_n_n_wf none _ _ r k).trans ?_
  refine Finset.sum_congr rfl fun d _ => ?_
  congr 1
  · exact shapeCast_1ab_ab_apply x0 _ r d
  · rw [shapeCast_self]

/-- The value block: rows of the input block times the value weights. -/
theorem vals_block (x0 : FVec Ideal S1x512x1024 .f32) (w : FVec Ideal S1024x1024 .bf16) (r : Fin 512) (e : Fin 1024) :
    k0_pay3 (F := Ideal) x0 w (ix3 (0 : Fin 1) r e) = ∑ d : Fin 1024, x0 (ix3 (0 : Fin 1) r d) * w (ix2 d e) := by
  unfold k0_pay3 k0_pay1
  refine (shapeCast_ab_1ab_apply _ _ (0 : Fin 1) r e).trans ?_
  refine (Cert.MatmulAt.matmul_zero_plain_apply Facts₀.dot_S512x1024_S1024x1024_S512x1024_1_0_0_1_n_n_wf none _ _ r e).trans ?_
  refine Finset.sum_congr rfl fun d _ => ?_
  congr 1
  · exact shapeCast_1ab_ab_apply x0 _ r d
  · rw [shapeCast_self]

/-- A 1 x a x b index is (0, its second coordinate, its third). -/
theorem eq_ix3_unit {a b : ℕ} (j : (⟨3, ![1, a, b]⟩ : Shape).Idx) : j = ix3 (0 : Fin 1) (j 1) (j 2) := by
  funext d
  match d with
  | ⟨0, _⟩ => exact Fin.ext (by have h : (j 0).val < 1 := (j 0).isLt; show (j 0).val = 0; omega)
  | ⟨1, _⟩ => rfl
  | ⟨2, _⟩ => rfl

/-- The key block at any index of the 1 x 512 x 256 block. -/
theorem keys_block_at (x0 : FVec Ideal S1x512x1024 .f32) (w : FVec Ideal S1024x256 .bf16) (j : S1x512x256.Idx) :
    k0_pay2 (F := Ideal) x0 w j = ∑ d : Fin 1024, x0 (ix3 (0 : Fin 1) (j 1) d) * w (ix2 d (j 2)) :=
  (congrArg (k0_pay2 (F := Ideal) x0 w) (eq_ix3_unit j)).trans (keys_block x0 w (j 1) (j 2))

/-- The value block at any index of the 1 x 512 x 1024 block. -/
theorem vals_block_at (x0 : FVec Ideal S1x512x1024 .f32) (w : FVec Ideal S1024x1024 .bf16) (j : S1x512x1024.Idx) :
    k0_pay3 (F := Ideal) x0 w j = ∑ d : Fin 1024, x0 (ix3 (0 : Fin 1) (j 1) d) * w (ix2 d (j 2)) :=
  (congrArg (k0_pay3 (F := Ideal) x0 w) (eq_ix3_unit j)).trans (vals_block x0 w (j 1) (j 2))

end Cert.KernelIdeal.Blocks

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.Blocks1.lean ====
/-
  The second region's body at one entry.

  At a grid point the body holds 256 rows of one batch element's input (as a 1 x 256 x 1024 array), that element's
  2048 key rows and 2048 value rows, and the weights.  With the block's row p being row (row p) of batch element b:
  the queries are the rows times the query weights, each entry multiplied by the scale; a score is the contraction of
  a query row with a key row; the row maximum is the fold of the maximum from minus infinity; the exponentials, the row
  sum (a sum into a zero accumulator) and the quotient give the attention weights.  The weights average the value
  rows; the average goes through the output projection, gets its bias (one row spread over all rows) and the input row
  added; the result goes through the hidden layer (projection, bias, maximum with zero), back through the second
  projection with its bias, and is added to the first sum.  At the exact instance every change of float format is
  the identity and every product into a zero accumulator is the contraction, so each entry is, term for term, the
  layer's function at that entry.
-/
import proofs.«117887_j35158602285745_2_alg».proof.Proof.Gen.KernelIdeal.Skeleton
import proofs.«117887_j35158602285745_2_alg».proof.Proof.Spec
import proofs.«117887_j35158602285745_2_alg».proof.Proof.LibMatmul
import proofs.«117887_j35158602285745_2_alg».proof.Proof.LibKeepdims
import Idealize.ShloMosaic.Lib.ValueLayout
import Idealize.ShloMosaic.Lib.Pipeline.Value
import Idealize.ShloMosaic.Lib.ValueIdx
import Idealize.ShloMosaic.PureOps.Reduce
import Idealize.ShloMosaic.PureOps.Ideal.Laws

noncomputable section

namespace Cert.KernelIdeal.Blocks1

open Cert.KernelIdeal Cert.KernelIdeal.Gen Idealize.ShloMosaic Idealize.ShloMosaic.ValueIdx Cert.Layer

/-- The narrowing of the float format is the identity on extended reals, entry by entry. -/
theorem trunc_entry {s : Shape} (a : FVec Ideal s .f32) (h : FTy.bf16.bits < FTy.f32.bits) (i : s.Idx) :
    (truncf .bf16 a h : FVec Ideal s .bf16) i = a i := rfl

/-! ## Rows of a 256 x 2048 matrix -/

/-- A row's index with the column coordinate put back is the entry's index. -/
theorem lift_cols (h : S256x2048.Reduces [1] S256) (p : Fin 256) (t : Fin 2048) : h.lift (ix1 p) t = ix2 p t := by
  funext c
  apply Fin.ext
  show h.liftVal (ix1 p) t.val c = (ix2 p t c).val
  unfold Shape.Reduces.liftVal
  match c with
  | ⟨0, _⟩ => rfl
  | ⟨1, _⟩ => rfl

/-- The maximum along the rows, from the word of minus infinity: the fold of the maximum from the bottom element. -/
theorem rowmax_entry (s : FVec Ideal S256x2048 .f32) (h : S256x2048.Reduces [1] S256) (hφ : FKind.Formats .f32)
    (hacc : (0xFF800000#32 : BitVec FTy.f32.bits) = FKind.maximumf.neutral .f32 hφ) (p : Fin 256) :
    multiReduction .maximumf [1] S256 s 0xFF800000#32 h hφ hacc (ix1 p)
      = (Finset.univ : Finset (Fin 2048)).fold max ⊥ (fun t => s (ix2 p t)) := by
  refine (Ideal.multiReduction_maximumf_single s _ h hφ hacc (ix1 p)).trans ?_
  show Finset.fold max (Ideal.ofBits .f32 0xFF800000#32) _ _ = _
  rw [ofBits_neg_inf]
  exact Finset.fold_congr fun t _ => congrArg s (lift_cols h p t)

/-- The sum along the rows, into the zero word: the plain sum. -/
theorem rowsum_entry (e : FVec Ideal S256x2048 .f32) (h : S256x2048.Reduces [1] S256) (hφ : FKind.Formats .f32)
    (hacc : (0x00000000#32 : BitVec FTy.f32.bits) = FKind.add.neutral .f32 hφ) (p : Fin 256) :
    multiReduction .add [1] S256 e 0x00000000#32 h hφ hacc (ix1 p) = ∑ t : Fin 2048, e (ix2 p t) := by
  refine (Ideal.multiReduction_add_single e _ h hφ hacc (ix1 p)).trans ?_
  exact Finset.sum_congr rfl fun t _ => congrArg e (lift_cols h p t)

/-- A vector of row values kept as a column and spread along the rows reads, at (p, t), the vector at p. -/
theorem keep_entry (v : FVec Ideal S256 .f32) (hc : S256.ShapeCasts S256x1) (hb : S256x1.Broadcasts S256x2048)
    (p : Fin 256) (t : Fin 2048) :
    broadcastTo S256x2048 (shapeCast S256x1 v hc) hb (ix2 p t) = v (ix1 p) :=
  (Cert.Keepdims.broadcastTo_a1_ab_apply _ hb p t).trans (Cert.Keepdims.shapeCast_a_a1_apply v hc p (0 : Fin 1))

section Softmax
variable (S : Scores) (b : Fin 4) (row : Fin 256 → Fin 2048)

/-- The exponentials: for a matrix whose entry (p, t) is the score of row (row p) against key t. -/
theorem expw_entry (s : FVec Ideal S256x2048 .f32) (hs : ∀ (p : Fin 256) (t : Fin 2048), s (ix2 p t) = S b (row p) t)
    (h : S256x2048.Reduces [1] S256) (hφ : FKind.Formats .f32)
    (hacc : (0xFF800000#32 : BitVec FTy.f32.bits) = FKind.maximumf.neutral .f32 hφ)
    (hc : S256.ShapeCasts S256x1) (hb : S256x1.Broadcasts S256x2048) (p : Fin 256) (t : Fin 2048) :
    exp (subf s (broadcastTo S256x2048 (shapeCast S256x1 (multiReduction .maximumf [1] S256 s 0xFF800000#32 h hφ hacc) hc) hb)) (ix2 p t)
      = expW S b (row p) t := by
  unfold expW rowMax
  show Ideal.exp (s (ix2 p t) - broadcastTo S256x2048 (shapeCast S256x1 (multiReduction .maximumf [1] S256 s 0xFF800000#32 h hφ hacc) hc) hb (ix2 p t)) = _
  refine congrArg Ideal.exp (congrArg₂ (· - ·) (hs p t) ?_)
  refine (keep_entry _ hc hb p t).trans ?_
  refine (rowmax_entry s h hφ hacc p).trans ?_
  exact Finset.fold_congr fun t' _ => hs p t'

/-- The attention weights: for a matrix whose entry (p, t) is the exponential of row (row p) at key t. -/
theorem attn_entry (e : FVec Ideal S256x2048 .f32) (he : ∀ (p : Fin 256) (t : Fin 2048), e (ix2 p t) = expW S b (row p) t)
    (h : S256x2048.Reduces [1] S256) (hφ : FKind.Formats .f32)
    (hacc : (0x00000000#32 : BitVec FTy.f32.bits) = FKind.add.neutral .f32 hφ)
    (hc : S256.ShapeCasts S256x1) (hb : S256x1.Broadcasts S256x2048) (p : Fin 256) (t : Fin 2048) :
    divf e (broadcastTo S256x2048 (shapeCast S256x1 (multiReduction .add [1] S256 e 0x00000000#32 h hφ hacc) hc) hb) (ix2 p t)
      = attnW S b (row p) t := by
  unfold attnW rowSum
  refine (divf_apply _ _ _).trans ?_
  refine congrArg₂ Ideal.div (he p t) ?_
  refine (keep_entry _ hc hb p t).trans ?_
  refine (rowsum_entry e h hφ hacc p).trans ?_
  exact Finset.sum_congr rfl fun t' _ => he p t'

end Softmax

/-! ## The attention weights of the block -/

/-- The block's rows with the unit axis dropped. -/
theorem x_entry (x0 : FVec Ideal S1x256x1024 .f32) (p : Fin 256) (d : Fin 1024) :
    k1_pay2 (F := Ideal) x0 (ix2 p d) = x0 (ix3 (0 : Fin 1) p d) := by
  unfold k1_pay2
  exact shapeCast_1ab_ab_apply x0 _ p d

section Block
variable (X : S4x2048x1024.Idx → EReal) (Wq Wk : S1024x256.Idx → EReal) (b : Fin 4) (row : Fin 256 → Fin 2048)
  (x0 : FVec Ideal S1x256x1024 .f32) (wq : FVec Ideal S1024x256 .bf16) (kb : FVec Ideal S1x2048x256 .bf16)
  (hx : ∀ (p : Fin 256) (d : Fin 1024), x0 (ix3 (0 : Fin 1) p d) = X (ix3 b (row p) d))
  (hwq : ∀ (d : Fin 1024) (k : Fin 256), wq (ix2 d k) = Wq (ix2 d k))
  (hk : ∀ (t : Fin 2048) (k : Fin 256), kb (ix3 (0 : Fin 1) t k) = proj256 X Wk b t k)

include hx hwq hk in
/-- The 256 x 2048 matrix of attention weights the body computes. -/
theorem pay3_entry (p : Fin 256) (t : Fin 2048) :
    k1_pay3 (F := Ideal) x0 wq kb (ix2 p t)
      = attnW (scoresIn (Ideal.ofBits .f32 0x3D800000#32) (proj256 X Wq) (proj256 X Wk)) b (row p) t := by
  unfold k1_pay3
  refine attn_entry (scoresIn (Ideal.ofBits .f32 0x3D800000#32) (proj256 X Wq) (proj256 X Wk)) b row _ ?_ _ _ _ _ _ p t
  intro p' t'
  refine expw_entry (scoresIn (Ideal.ofBits .f32 0x3D800000#32) (proj256 X Wq) (proj256 X Wk)) b row _ ?_ _ _ _ _ _ p' t'
  intro p'' t''
  refine (Cert.MatmulAt.matmul_zero_nt_apply Facts₀.dot_S256x256_S2048x256_S256x2048_1_1_0_0_n_n_wf none _ _ p'' t'').trans ?_
  unfold scoresIn
  refine Finset.sum_congr rfl fun k _ => ?_
  refine congrArg₂ (· * ·) ?_ ?_
  · refine (trunc_entry _ _ _).trans ?_
    refine (mulf_apply _ _ _).trans ?_
    refine congrArg₂ (· * ·) ?_ rfl
    refine (Cert.MatmulAt.matmul_zero_plain_apply Facts₀.dot_S256x1024_S1024x256_S256x256_1_0_0_1_n_n_wf none _ _ p'' k).trans ?_
    unfold proj256
    refine Finset.sum_congr rfl fun d _ => ?_
    refine congrArg₂ (· * ·) ?_ ?_
    · exact (x_entry x0 p'' d).trans (hx p'' d)
    · exact (congrFun (shapeCast_self wq _) _).trans (hwq d k)
  · exact (shapeCast_1ab_ab_apply kb _ t'' k).trans (hk t'' k)

include hx hwq hk in
/-- The attention weights as the body stores them, with a leading unit axis. -/
theorem attn_block (p : Fin 256) (t : Fin 2048) :
    k1_pay4 (F := Ideal) x0 wq kb (ix3 (0 : Fin 1) p t)
      = attnW (scoresIn (Ideal.ofBits .f32 0x3D800000#32) (proj256 X Wq) (proj256 X Wk)) b (row p) t := by
  unfold k1_pay4
  exact (shapeCast_ab_1ab_apply _ _ (0 : Fin 1) p t).trans (pay3_entry X Wq Wk b row x0 wq kb hx hwq hk p t)

end Block

/-! ## The layer's output on the block -/

section Out
variable (X : S4x2048x1024.Idx → EReal) (Wq Wk : S1024x256.Idx → EReal) (Wv Wo : S1024x1024.Idx → EReal)
  (Bo : S1024.Idx → EReal) (W1 : S1024x256.Idx → EReal) (B1 : S256.Idx → EReal) (W2 : S256x1024.Idx → EReal)
  (B2 : S1024.Idx → EReal) (b : Fin 4) (row : Fin 256 → Fin 2048)
  (x0 : FVec Ideal S1x256x1024 .f32) (wq : FVec Ideal S1024x256 .bf16) (kb : FVec Ideal S1x2048x256 .bf16)
  (vb : FVec Ideal S1x2048x1024 .bf16) (wo : FVec Ideal S1024x1024 .bf16) (bo : FVec Ideal S1x1024 .f32)
  (w1 : FVec Ideal S1024x256 .bf16) (b1 : FVec Ideal S1x256 .f32) (w2 : FVec Ideal S256x1024 .bf16)
  (b2 : FVec Ideal S1x1024 .f32)
  (hx : ∀ (p : Fin 256) (d : Fin 1024), x0 (ix3 (0 : Fin 1) p d) = X (ix3 b (row p) d))
  (hwq : ∀ (d : Fin 1024) (k : Fin 256), wq (ix2 d k) = Wq (ix2 d k))
  (hk : ∀ (t : Fin 2048) (k : Fin 256), kb (ix3 (0 : Fin 1) t k) = proj256 X Wk b t k)
  (hv : ∀ (t : Fin 2048) (e : Fin 1024), vb (ix3 (0 : Fin 1) t e) = proj1024 X Wv b t e)
  (hwo : ∀ (e o : Fin 1024), wo (ix2 e o) = Wo (ix2 e o))
  (hbo : ∀ (o : Fin 1024), bo (ix2 (0 : Fin 1) o) = Bo (ix1 o))
  (hw1 : ∀ (d : Fin 1024) (k : Fin 256), w1 (ix2 d k) = W1 (ix2 d k))
  (hb1 : ∀ (k : Fin 256), b1 (ix2 (0 : Fin 1) k) = B1 (ix1 k))
  (hw2 : ∀ (k : Fin 256) (o : Fin 1024), w2 (ix2 k o) = W2 (ix2 k o))
  (hb2 : ∀ (o : Fin 1024), b2 (ix2 (0 : Fin 1) o) = B2 (ix1 o))

include hx hwq hk hv hwo in
/-- The output projection of the weighted average of the value rows. -/
theorem pay5_entry (p : Fin 256) (o : Fin 1024) :
    k1_pay5 (F := Ideal) x0 wq kb vb wo (ix2 p o)
      = contextOut (scoresIn (Ideal.ofBits .f32 0x3D800000#32) (proj256 X Wq) (proj256 X Wk)) (proj1024 X Wv) Wo b (row p) o := by
  unfold k1_pay5
  refine (Cert.MatmulAt.matmul_zero_plain_apply Facts₀.dot_S256x1024_S1024x1024_S256x1024_1_0_0_1_n_n_wf none _ _ p o).trans ?_
  unfold contextOut
  refine Finset.sum_congr rfl fun e _ => ?_
  refine congrArg₂ (· * ·) ?_ ?_
  · refine (trunc_entry _ _ _).trans ?_
    refine (Cert.MatmulAt.matmul_zero_plain_apply Facts₀.dot_S256x2048_S2048x1024_S256x1024_1_0_0_1_n_n_wf none _ _ p e).trans ?_
    unfold context
    refine Finset.sum_congr rfl fun t _ => ?_
    refine congrArg₂ (· * ·) ?_ ?_
    · exact (trunc_entry _ _ _).trans (pay3_entry X Wq Wk b row x0 wq kb hx hwq hk p t)
    · exact (shapeCast_1ab_ab_apply vb _ t e).trans (hv t e)
  · exact (congrFun (shapeCast_self wo _) _).trans (hwo e o)

/-- The first residual, for any two 256 x 1024 arrays holding the input rows and the projected average. -/
theorem resid_entry (S : Scores) (Vp : Fin 4 → Fin 2048 → Fin 1024 → EReal) (v1 v31 : FVec Ideal S256x1024 .f32)
    (h1 : ∀ (p : Fin 256) (d : Fin 1024), v1 (ix2 p d) = X (ix3 b (row p) d))
    (h31 : ∀ (p : Fin 256) (o : Fin 1024), v31 (ix2 p o) = contextOut S Vp Wo b (row p) o)
    (hbo : ∀ (o : Fin 1024), bo (ix2 (0 : Fin 1) o) = Bo (ix1 o))
    (hc : S1x1024.ShapeCasts S1x1024) (hb : S1x1024.Broadcasts S256x1024) (p : Fin 256) (d : Fin 1024) :
    addf v1 (addf v31 (broadcastTo S256x1024 (shapeCast S1x1024 bo hc) hb)) (ix2 p d) = resid S X Vp Wo Bo b (row p) d := by
  unfold resid
  refine (addf_apply _ _ _).trans ?_
  refine congrArg₂ (· + ·) (h1 p d) ?_
  refine (addf_apply _ _ _).trans ?_
  refine congrArg₂ (· + ·) (h31 p d) ?_
  refine (broadcastTo_1b_ab_apply _ hb p d).trans ?_
  exact (congrFun (shapeCast_self bo hc) _).trans (hbo d)

/-- The stored block, for any two 256 x 1024 arrays holding the input rows and the projected average. -/
theorem pay1_entry (S : Scores) (Vp : Fin 4 → Fin 2048 → Fin 1024 → EReal) (v1 v31 : FVec Ideal S256x1024 .f32)
    (h1 : ∀ (p : Fin 256) (d : Fin 1024), v1 (ix2 p d) = X (ix3 b (row p) d))
    (h31 : ∀ (p : Fin 256) (o : Fin 1024), v31 (ix2 p o) = contextOut S Vp Wo b (row p) o)
    (hbo : ∀ (o : Fin 1024), bo (ix2 (0 : Fin 1) o) = Bo (ix1 o))
    (hw1 : ∀ (d : Fin 1024) (k : Fin 256), w1 (ix2 d k) = W1 (ix2 d k))
    (hb1 : ∀ (k : Fin 256), b1 (ix2 (0 : Fin 1) k) = B1 (ix1 k))
    (hw2 : ∀ (k : Fin 256) (o : Fin 1024), w2 (ix2 k o) = W2 (ix2 k o))
    (hb2 : ∀ (o : Fin 1024), b2 (ix2 (0 : Fin 1) o) = B2 (ix1 o))
    (p : Fin 256) (o : Fin 1024) :
    k1_pay1 (F := Ideal) v1 v31 bo w1 b1 w2 b2 (ix3 (0 : Fin 1) p o) = layerOut S X Vp Wo Bo W1 B1 W2 B2 b (row p) o := by
  unfold k1_pay1
  refine (shapeCast_ab_1ab_apply _ _ (0 : Fin 1) p o).trans ?_
  refine (addf_apply _ _ _).trans ?_
  unfold layerOut
  refine congrArg₂ (· + ·) (resid_entry X Wo Bo b row bo S Vp v1 v31 h1 h31 hbo _ _ p o) ?_
  refine (addf_apply _ _ _).trans ?_
  refine congrArg₂ (· + ·) ?_ ?_
  · refine (Cert.MatmulAt.matmul_zero_plain_apply Facts₀.dot_S256x256_S256x1024_S256x1024_1_0_0_1_n_n_wf none _ _ p o).trans ?_
    unfold feedFwd
    refine Finset.sum_congr rfl fun k _ => ?_
    refine congrArg₂ (· * ·) ?_ ?_
    · refine (trunc_entry _ _ _).trans ?_
      refine (maximumf_apply _ _ _).trans ?_
      unfold Cert.Layer.hidden
      refine congrArg₂ max ?_ ?_
      · refine (addf_apply _ _ _).trans ?_
        refine congrArg₂ (· + ·) ?_ ?_
        · refine (Cert.MatmulAt.matmul_zero_plain_apply Facts₀.dot_S256x1024_S1024x256_S256x256_1_0_0_1_n_n_wf none _ _ p k).trans ?_
          refine Finset.sum_congr rfl fun d _ => ?_
          refine congrArg₂ (· * ·) ?_ ?_
          · exact (trunc_entry _ _ _).trans (resid_entry X Wo Bo b row bo S Vp v1 v31 h1 h31 hbo _ _ p d)
          · exact (congrFun (shapeCast_self w1 _) _).trans (hw1 d k)
        · refine (broadcastTo_1b_ab_apply _ _ p k).trans ?_
          exact (congrFun (shapeCast_self b1 _) _).trans (hb1 k)
      · exact Ideal.ofBits_zero_f32
    · exact (congrFun (shapeCast_self w2 _) _).trans (hw2 k o)
  · refine (broadcastTo_1b_ab_apply _ _ p o).trans ?_
    exact (congrFun (shapeCast_self b2 _) _).trans (hb2 o)

include hx hwq hk hv hwo hbo hw1 hb1 hw2 hb2 in
/-- The block the body stores is the layer's output on the block's rows. -/
theorem out_block (p : Fin 256) (o : Fin 1024) :
    k1_pay1 (F := Ideal) (k1_pay2 x0) (k1_pay5 x0 wq kb vb wo) bo w1 b1 w2 b2 (ix3 (0 : Fin 1) p o)
      = layerOut (scoresIn (Ideal.ofBits .f32 0x3D800000#32) (proj256 X Wq) (proj256 X Wk)) X (proj1024 X Wv) Wo Bo W1 B1 W2 B2 b (row p) o :=
  pay1_entry X Wo Bo W1 B1 W2 B2 b row bo w1 b1 w2 b2 _ _ (k1_pay2 x0) (k1_pay5 x0 wq kb vb wo)
    (fun p d => (x_entry x0 p d).trans (hx p d))
    (fun p o => pay5_entry X Wq Wk Wv Wo b row x0 wq kb vb wo hx hwq hk hv hwo p o)
    hbo hw1 hb1 hw2 hb2 p o

end Out

end Cert.KernelIdeal.Blocks1

end
-- ==== Proof.Region1.lean ====
/-
  The second region: the attention weights and the layer's output as whole arrays.

  The grid has thirty-two points: a batch index (four) and a tile of 256 query rows (eight per batch).  At a point the
  body reads the tile's 256 rows of the input, the whole key and value arrays of the point's batch, and every weight
  and bias whole; it writes the tile's 256 rows of the attention weights (against all 2048 keys) and of the output.
  Row p of the tile is row 256 * (tile index) + p of the array, in the point's batch.  Whatever the region finds in its
  buffers, if the key and value arrays it finds are the projections of the input it finds, then after the last point
  the two output arrays are the layer's attention weights and output of those contents, entry by entry: the written
  blocks tile both arrays.
-/
import proofs.«117887_j35158602285745_2_alg».proof.Proof.Gen.KernelIdeal.Frame
import proofs.«117887_j35158602285745_2_alg».proof.Proof.Blocks0
import proofs.«117887_j35158602285745_2_alg».proof.Proof.Blocks1
import proofs.«117887_j35158602285745_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the thirty-two points: the input tile and both outputs sit at (batch, tile, 0), the key and
    value arrays at (batch, 0, 0), every weight and bias at (0, 0); the batch ranges over 0..3 and the tile over 0..7. -/
theorem idx_facts : ∀ t : Fin cfg1.N,
    win1_0.index t (0 : Fin 3) = win1_10.index t (0 : Fin 3)
    ∧ win1_0.index t (1 : Fin 3) = win1_10.index t (1 : Fin 3)
    ∧ win1_0.index t (2 : Fin 3) = 0
    ∧ win1_1.index t (0 : Fin 3) = win1_10.index t (0 : Fin 3)
    ∧ win1_1.index t (1 : Fin 3) = 0
    ∧ win1_1.index t (2 : Fin 3) = 0
    ∧ win1_2.index t (0 : Fin 3) = win1_10.index t (0 : Fin 3)
    ∧ win1_2.index t (1 : Fin 3) = 0
    ∧ win1_2.index t (2 : Fin 3) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (2 : Fin 3) = 0
    ∧ win1_11.index t (0 : Fin 3) = win1_10.index t (0 : Fin 3)
    ∧ win1_11.index t (1 : Fin 3) = win1_10.index t (1 : Fin 3)
    ∧ win1_11.index t (2 : Fin 3) = 0
    ∧ win1_10.index t (0 : Fin 3) ≤ 3
    ∧ win1_10.index t (1 : Fin 3) ≤ 7 :=
  (by decide +kernel : ∀ t : Fin grid1.N, _)

/-- Every (batch, tile) is some point's. -/
theorem idx_onto : ∀ (q0 : Fin 4) (q1 : Fin 8), ∃ t : Fin cfg1.N,
    win1_10.index t (0 : Fin 3) = q0.val ∧ win1_10.index t (1 : Fin 3) = q1.val :=
  (by decide +kernel : ∀ (q0 : Fin 4) (q1 : Fin 8), ∃ t : Fin grid1.N, _)

/-! ## The input windows' blocks as entries of their arrays -/

/-- Window 0's block at a point: entry y sits in its array at block index times block size plus y, axis by axis. -/
theorem blk0_apply (c : Dev nD) (t : Fin cfg1.N) (y : S1x256x1024.Idx) (k : S4x2048x1024.Idx)
    (h0 : (k 0).val = win1_0.index t (0 : Fin 3) * 1 + 1 * (y 0).val)
    (h1 : (k 1).val = win1_0.index t (1 : Fin 3) * 256 + 1 * (y 1).val)
    (h2 : (k 2).val = win1_0.index t (2 : Fin 3) * 1024 + 1 * (y 2).val) :
    (iblk1 V c 0 t : S1x256x1024.Idx → EReal) y = (V c main_arg0 : S4x2048x1024.Idx → EReal) k := by
  unfold iblk1
  rw [View.read_apply]
  show V c main_arg0 _ = V c main_arg0 _
  congr 1
  funext a
  apply Fin.ext
  match a with
  | ⟨0, _⟩ => exact h0.symm
  | ⟨1, _⟩ => exact h1.symm
  | ⟨2, _⟩ => exact h2.symm

/-- Window 1's block at a point: entry y sits in its array at block index times block size plus y, axis by axis. -/
theorem blk1_apply (c : Dev nD) (t : Fin cfg1.N) (y : S1x2048x256.Idx) (k : S4x2048x256.Idx)
    (h0 : (k 0).val = win1_1.index t (0 : Fin 3) * 1 + 1 * (y 0).val)
    (h1 : (k 1).val = win1_1.index t (1 : Fin 3) * 2048 + 1 * (y 1).val)
    (h2 : (k 2).val = win1_1.index t (2 : Fin 3) * 256 + 1 * (y 2).val) :
    (iblk1 V c 1 t : S1x2048x256.Idx → EReal) y = (V c main_v9_0 : S4x2048x256.Idx → EReal) k := by
  unfold iblk1
  rw [View.read_apply]
  show V c main_v9_0 _ = V c main_v9_0 _
  congr 1
  funext a
  apply Fin.ext
  match a with
  | ⟨0, _⟩ => exact h0.symm
  | ⟨1, _⟩ => exact h1.symm
  | ⟨2, _⟩ => exact h2.symm

/-- Window 2's block at a point: entry y sits in its array at block index times block size plus y, axis by axis. -/
theorem blk2_apply (c : Dev nD) (t : Fin cfg1.N) (y : S1x2048x1024.Idx) (k : S4x2048x1024.Idx)
    (h0 : (k 0).val = win1_2.index t (0 : Fin 3) * 1 + 1 * (y 0).val)
    (h1 : (k 1).val = win1_2.index t (1 : Fin 3) * 2048 + 1 * (y 1).val)
    (h2 : (k 2).val = win1_2.index t (2 : Fin 3) * 1024 + 1 * (y 2).val) :
    (iblk1 V c 2 t : S1x2048x1024.Idx → EReal) y = (V c main_v9_1 : S4x2048x1024.Idx → EReal) k := by
  unfold iblk1
  rw [View.read_apply]
  show V c main_v9_1 _ = V c main_v9_1 _
  congr 1
  funext a
  apply Fin.ext
  match a with
  | ⟨0, _⟩ => exact h0.symm
  | ⟨1, _⟩ => exact h1.symm
  | ⟨2, _⟩ => exact h2.symm

/-- Window 3's block at a point: entry y sits in its array at block index times block size plus y, axis by axis. -/
theorem blk3_apply (c : Dev nD) (t : Fin cfg1.N) (y : S1024x256.Idx) (k : S1024x256.Idx)
    (h0 : (k 0).val = win1_3.index t (0 : Fin 2) * 1024 + 1 * (y 0).val)
    (h1 : (k 1).val = win1_3.index t (1 : Fin 2) * 256 + 1 * (y 1).val) :
    (iblk1 V c 3 t : S1024x256.Idx → EReal) y = (V c main_v2 : S1024x256.Idx → EReal) k := by
  unfold iblk1
  rw [View.read_apply]
  show V c main_v2 _ = V c main_v2 _
  congr 1
  funext a
  apply Fin.ext
  match a with
  | ⟨0, _⟩ => exact h0.symm
  | ⟨1, _⟩ => exact h1.symm

/-- Window 4's block at a point: entry y sits in its array at block index times block size plus y, axis by axis. -/
theorem blk4_apply (c : Dev nD) (t : Fin cfg1.N) (y : S1024x1024.Idx) (k : S1024x1024.Idx)
    (h0 : (k 0).val = win1_4.index t (0 : Fin 2) * 1024 + 1 * (y 0).val)
    (h1 : (k 1).val = win1_4.index t (1 : Fin 2) * 1024 + 1 * (y 1).val) :
    (iblk1 V c 4 t : S1024x1024.Idx → EReal) y = (V c main_v3 : S1024x1024.Idx → EReal) k := by
  unfold iblk1
  rw [View.read_apply]
  show V c main_v3 _ = V c main_v3 _
  congr 1
  funext a
  apply Fin.ext
  match a with
  | ⟨0, _⟩ => exact h0.symm
  | ⟨1, _⟩ => exact h1.symm

/-- Window 5's block at a point: entry y sits in its array at block index times block size plus y, axis by axis. -/
theorem blk5_apply (c : Dev nD) (t : Fin cfg1.N) (y : S1x1024.Idx) (k : S1x1024.Idx)
    (h0 : (k 0).val = win1_5.index t (0 : Fin 2) * 1 + 1 * (y 0).val)
    (h1 : (k 1).val = win1_5.index t (1 : Fin 2) * 1024 + 1 * (y 1).val) :
    (iblk1 V c 5 t : S1x1024.Idx → EReal) y = (V c main_v6 : S1x1024.Idx → EReal) k := by
  unfold iblk1
  rw [View.read_apply]
  show V c main_v6 _ = V c main_v6 _
  congr 1
  funext a
  apply Fin.ext
  match a with
  | ⟨0, _⟩ => exact h0.symm
  | ⟨1, _⟩ => exact h1.symm

/-- Window 6's block at a point: entry y sits in its array at block index times block size plus y, axis by axis. -/
theorem blk6_apply (c : Dev nD) (t : Fin cfg1.N) (y : S1024x256.Idx) (k : S1024x256.Idx)
    (h0 : (k 0).val = win1_6.index t (0 : Fin 2) * 1024 + 1 * (y 0).val)
    (h1 : (k 1).val = win1_6.index t (1 : Fin 2) * 256 + 1 * (y 1).val) :
    (iblk1 V c 6 t : S1024x256.Idx → EReal) y = (V c main_v4 : S1024x256.Idx → EReal) k := by
  unfold iblk1
  rw [View.read_apply]
  show V c main_v4 _ = V c main_v4 _
  congr 1
  funext a
  apply Fin.ext
  match a with
  | ⟨0, _⟩ => exact h0.symm
  | ⟨1, _⟩ => exact h1.symm

/-- Window 7's block at a point: entry y sits in its array at block index times block size plus y, axis by axis. -/
theorem blk7_apply (c : Dev nD) (t : Fin cfg1.N) (y : S1x256.Idx) (k : S1x256.Idx)
    (h0 : (k 0).val = win1_7.index t (0 : Fin 2) * 1 + 1 * (y 0).val)
    (h1 : (k 1).val = win1_7.index t (1 : Fin 2) * 256 + 1 * (y 1).val) :
    (iblk1 V c 7 t : S1x256.Idx → EReal) y = (V c main_v7 : S1x256.Idx → EReal) k := by
  unfold iblk1
  rw [View.read_apply]
  show V c main_v7 _ = V c main_v7 _
  congr 1
  funext a
  apply Fin.ext
  match a with
  | ⟨0, _⟩ => exact h0.symm
  | ⟨1, _⟩ => exact h1.symm

/-- Window 8's block at a point: entry y sits in its array at block index times block size plus y, axis by axis. -/
theorem blk8_apply (c : Dev nD) (t : Fin cfg1.N) (y : S256x1024.Idx) (k : S256x1024.Idx)
    (h0 : (k 0).val = win1_8.index t (0 : Fin 2) * 256 + 1 * (y 0).val)
    (h1 : (k 1).val = win1_8.index t (1 : Fin 2) * 1024 + 1 * (y 1).val) :
    (iblk1 V c 8 t : S256x1024.Idx → EReal) y = (V c main_v5 : S256x1024.Idx → EReal) k := by
  unfold iblk1
  rw [View.read_apply]
  show V c main_v5 _ = V c main_v5 _
  congr 1
  funext a
  apply Fin.ext
  match a with
  | ⟨0, _⟩ => exact h0.symm
  | ⟨1, _⟩ => exact h1.symm

/-- Window 9's block at a point: entry y sits in its array at block index times block size plus y, axis by axis. -/
theorem blk9_apply (c : Dev nD) (t : Fin cfg1.N) (y : S1x1024.Idx) (k : S1x1024.Idx)
    (h0 : (k 0).val = win1_9.index t (0 : Fin 2) * 1 + 1 * (y 0).val)
    (h1 : (k 1).val = win1_9.index t (1 : Fin 2) * 1024 + 1 * (y 1).val) :
    (iblk1 V c 9 t : S1x1024.Idx → EReal) y = (V c main_v8 : S1x1024.Idx → EReal) k := by
  unfold iblk1
  rw [View.read_apply]
  show V c main_v8 _ = V c main_v8 _
  congr 1
  funext a
  apply Fin.ext
  match a with
  | ⟨0, _⟩ => exact h0.symm
  | ⟨1, _⟩ => exact h1.symm

/-! ## The arrays as the region finds them, and the two results as functions of them -/

/-- A 1 x n row read as a length-n vector. -/
abbrev biasRow {n : ℕ} (v : (⟨2, ![1, n]⟩ : Shape).Idx → EReal) : (⟨1, ![n]⟩ : Shape).Idx → EReal :=
  fun i => v (ix2 (0 : Fin 1) (i 0))

abbrev aX (c : Dev nD) : S4x2048x1024.Idx → EReal := V c main_arg0
abbrev aWq (c : Dev nD) : S1024x256.Idx → EReal := V c main_v2
abbrev aWo (c : Dev nD) : S1024x1024.Idx → EReal := V c main_v3
abbrev aBo (c : Dev nD) : S1024.Idx → EReal := biasRow (V c main_v6 : S1x1024.Idx → EReal)
abbrev aW1 (c : Dev nD) : S1024x256.Idx → EReal := V c main_v4
abbrev aB1 (c : Dev nD) : S256.Idx → EReal := biasRow (V c main_v7 : S1x256.Idx → EReal)
abbrev aW2 (c : Dev nD) : S256x1024.Idx → EReal := V c main_v5
abbrev aB2 (c : Dev nD) : S1024.Idx → EReal := biasRow (V c main_v8 : S1x1024.Idx → EReal)

variable (Wk : S1024x256.Idx → EReal) (Wv : S1024x1024.Idx → EReal)

/-- The score table: queries scaled by the 1/16 word, against the keys. -/
abbrev scoreTab (c : Dev nD) : Scores :=
  scoresIn (Ideal.ofBits .f32 0x3D800000#32) (proj256 (aX V c) (aWq V c)) (proj256 (aX V c) Wk)

/-- The attention weights as an array. -/
abbrev attnArr (c : Dev nD) : S4x2048x2048.Idx → EReal := fun i => attnW (scoreTab V Wk c) (i 0) (i 1) (i 2)

/-- The layer's output as an array. -/
abbrev outArr (c : Dev nD) : S4x2048x1024.Idx → EReal := fun i =>
  layerOut (scoreTab V Wk c) (aX V c) (proj1024 (aX V c) Wv) (aWo V c) (aBo V c) (aW1 V c) (aB1 V c) (aW2 V c) (aB2 V c) (i 0) (i 1) (i 2)

/-- The weights at indices with equal coordinates are equal. -/
theorem attnW_congr (S : Scores) {b b' : Fin 4} {i i' t t' : Fin 2048} (hb : b'.val = b.val) (hi : i'.val = i.val) (ht : t'.val = t.val) :
    attnW S b i t = attnW S b' i' t' := by
  obtain rfl := Fin.ext hb; obtain rfl := Fin.ext hi; obtain rfl := Fin.ext ht; rfl

/-- The output at indices with equal coordinates is equal. -/
theorem layerOut_congr (S : Scores) (X : Arr3 4 2048 1024) (Vp : Fin 4 → Fin 2048 → Fin 1024 → EReal) (Wo : Arr2 1024 1024) (Bo : Arr1 1024)
    (W1 : Arr2 1024 256) (B1 : Arr1 256) (W2 : Arr2 256 1024) (B2 : Arr1 1024)
    {b b' : Fin 4} {i i' : Fin 2048} {o o' : Fin 1024} (hb : b'.val = b.val) (hi : i'.val = i.val) (ho : o'.val = o.val) :
    layerOut S X Vp Wo Bo W1 B1 W2 B2 b i o = layerOut S X Vp Wo Bo W1 B1 W2 B2 b' i' o' := by
  obtain rfl := Fin.ext hb; obtain rfl := Fin.ext hi; obtain rfl := Fin.ext ho; rfl

section Finals
variable (c : Dev nD)
variable (hK : ∀ (b : Fin 4) (s : Fin 2048) (k : Fin 256), (V c main_v9_0 : S4x2048x256.Idx → EReal) (ix3 b s k) = proj256 (aX V c) Wk b s k)
variable (hV : ∀ (b : Fin 4) (s : Fin 2048) (e : Fin 1024), (V c main_v9_1 : S4x2048x1024.Idx → EReal) (ix3 b s e) = proj1024 (aX V c) Wv b s e)

/-! ## Output window 11: the attention weights -/

theorem mem_blk11 (t : Fin cfg1.N) (i : S4x2048x2048.Idx) :
    i ∈ ((cfg1.win 11).blk t).view.set ↔ ∀ a : Fin 3, win1_11.index t a * S1x256x2048.size a ≤ (i a).val ∧ (i a).val < win1_11.index t a * S1x256x2048.size a + S1x256x2048.size a := by
  show i ∈ ((View.whole main_v10_1).slice (win1_11.rect t)).set ↔ _
  rw [View.set_slice_whole, Rect.mem_set_unit]
  exact Iff.rfl

/-- Every index of the array lies in some point's block: the batch is the point's first coordinate, the block of 256 rows its second. -/
theorem cover11 (i : S4x2048x2048.Idx) : ∃ t : Fin cfg1.N, (cfg1.win 11).flush t = true ∧ i ∈ ((cfg1.win 11).blk t).view.set := by
  have hi0 : (i 0).val < 4 := (i 0).isLt
  have hi1 : (i 1).val < 2048 := (i 1).isLt
  have hi2 : (i 2).val < 2048 := (i 2).isLt
  obtain ⟨t, q0, q1⟩ := idx_onto ⟨(i 0).val, hi0⟩ ⟨(i 1).val / 256, by omega⟩
  obtain ⟨f1, f2, f3, f4, f5, f6, f7, f8, f9, f10, f11, f12, f13, f14, f15, f16, f17, f18, f19, f20, f21, f22, f23, f24, f25, f26, f27, f28, f29⟩ := idx_facts t
  have q0' : win1_10.index t (0 : Fin 3) = (i 0).val := q0
  have q1' : win1_10.index t (1 : Fin 3) = (i 1).val / 256 := q1
  refine ⟨t, flush1_11 t, ?_⟩
  rw [mem_blk11]
  intro a
  match a with
  | ⟨0, _⟩ => show win1_11.index t (0 : Fin 3) * 1 ≤ (i 0).val ∧ (i 0).val < win1_11.index t (0 : Fin 3) * 1 + 1; omega
  | ⟨1, _⟩ => show win1_11.index t (1 : Fin 3) * 256 ≤ (i 1).val ∧ (i 1).val < win1_11.index t (1 : Fin 3) * 256 + 256; omega
  | ⟨2, _⟩ => show win1_11.index t (2 : Fin 3) * 2048 ≤ (i 2).val ∧ (i 2).val < win1_11.index t (2 : Fin 3) * 2048 + 2048; omega

include hK in
/-- What a point writes back is its tile of the attention weights. -/
theorem flushed11_eq (t : Fin cfg1.N) :
    (dat1 V c).flushed 11 t = ((cfg1.win 11).blk t).view.read (Elt Ideal) (attnArr V Wk c) := by
  show (cfg1.win 11).cut (grid1.coords t) ((dat1 V c).after 11 t) = _
  rw [after1_11]
  unfold out1_11
  rw [View.canon_unit_zero hz3]
  simp only [View.ld_unit_zero (S := S1x256x1024) hz3, View.ld_unit_zero (S := S1024x256) hz2, View.ld_unit_zero (S := S1x2048x256) hz3]
  obtain ⟨f1, f2, f3, f4, f5, f6, f7, f8, f9, f10, f11, f12, f13, f14, f15, f16, f17, f18, f19, f20, f21, f22, f23, f24, f25, f26, f27, f28, f29⟩ := idx_facts t
  funext j
  show k1_pay4 (F := Ideal) (iblk1 V c 0 t) (iblk1 V c 3 t) (iblk1 V c 1 t) j = attnArr V Wk c (((cfg1.win 11).blk t).view.emb j)
  have hj0 : (j 0).val < 1 := (j 0).isLt
  have hj1 : (j 1).val < 256 := (j 1).isLt
  have hj2 : (j 2).val < 2048 := (j 2).isLt
  have hb : win1_10.index t (0 : Fin 3) < 4 := by omega
  have hrow : ∀ p : Fin 256, win1_10.index t (1 : Fin 3) * 256 + p.val < 2048 := fun p => by have := p.isLt; omega
  refine ((congrArg (k1_pay4 (F := Ideal) (iblk1 V c 0 t) (iblk1 V c 3 t) (iblk1 V c 1 t)) (Cert.KernelIdeal.Blocks.eq_ix3_unit j)).trans
    (Cert.KernelIdeal.Blocks1.attn_block (aX V c) (aWq V c) Wk ⟨win1_10.index t (0 : Fin 3), hb⟩
      (fun p => ⟨win1_10.index t (1 : Fin 3) * 256 + p.val, hrow p⟩)
      (iblk1 V c 0 t) (iblk1 V c 3 t) (iblk1 V c 1 t)
      (fun p d => blk0_apply V c t _ _
        (by show win1_10.index t (0 : Fin 3) = win1_0.index t (0 : Fin 3) * 1 + 1 * 0; omega)
        (by show win1_10.index t (1 : Fin 3) * 256 + p.val = win1_0.index t (1 : Fin 3) * 256 + 1 * p.val; omega)
        (by show d.val = win1_0.index t (2 : Fin 3) * 1024 + 1 * d.val; omega))
      (fun d k => blk3_apply V c t _ _
        (by show d.val = win1_3.index t (0 : Fin 2) * 1024 + 1 * d.val; omega)
        (by show k.val = win1_3.index t (1 : Fin 2) * 256 + 1 * k.val; omega))
      (fun s k => (blk1_apply V c t _ (ix3 (⟨win1_10.index t (0 : Fin 3), hb⟩ : Fin 4) s k)
        (by show win1_10.index t (0 : Fin 3) = win1_1.index t (0 : Fin 3) * 1 + 1 * 0; omega)
        (by show s.val = win1_1.index t (1 : Fin 3) * 2048 + 1 * s.val; omega)
        (by show k.val = win1_1.index t (2 : Fin 3) * 256 + 1 * k.val; omega)).trans (hK _ s k))
      (j 1) (j 2))).trans ?_
  refine attnW_congr _ ?_ ?_ ?_
  · show win1_11.index t (0 : Fin 3) * 1 + 1 * (j 0).val = win1_10.index t (0 : Fin 3); omega
  · show win1_11.index t (1 : Fin 3) * 256 + 1 * (j 1).val = win1_10.index t (1 : Fin 3) * 256 + (j 1).val; omega
  · show win1_11.index t (2 : Fin 3) * 2048 + 1 * (j 2).val = (j 2).val; omega

include hK in
/-- After the region's last point the array holds the attention weights. -/
theorem final11 : (dat1 V c).arrAt 11 cfg1.N = attnArr V Wk c :=
  (dat1 V c).arrAt_eq_of_cover 11 _ (fun t _ => flushed11_eq V Wk c hK t) cover11

/-! ## Output window 10: the layer's output -/

theorem mem_blk10 (t : Fin cfg1.N) (i : S4x2048x1024.Idx) :
    i ∈ ((cfg1.win 10).blk t).view.set ↔ ∀ a : Fin 3, win1_10.index t a * S1x256x1024.size a ≤ (i a).val ∧ (i a).val < win1_10.index t a * S1x256x1024.size a + S1x256x1024.size a := by
  show i ∈ ((View.whole main_v10_0).slice (win1_10.rect t)).set ↔ _
  rw [View.set_slice_whole, Rect.mem_set_unit]
  exact Iff.rfl

/-- Every index of the array lies in some point's block: the batch is the point's first coordinate, the block of 256 rows its second. -/
theorem cover10 (i : S4x2048x1024.Idx) : ∃ t : Fin cfg1.N, (cfg1.win 10).flush t = true ∧ i ∈ ((cfg1.win 10).blk t).view.set := by
  have hi0 : (i 0).val < 4 := (i 0).isLt
  have hi1 : (i 1).val < 2048 := (i 1).isLt
  have hi2 : (i 2).val < 1024 := (i 2).isLt
  obtain ⟨t, q0, q1⟩ := idx_onto ⟨(i 0).val, hi0⟩ ⟨(i 1).val / 256, by omega⟩
  obtain ⟨f1, f2, f3, f4, f5, f6, f7, f8, f9, f10, f11, f12, f13, f14, f15, f16, f17, f18, f19, f20, f21, f22, f23, f24, f25, f26, f27, f28, f29⟩ := idx_facts t
  have q0' : win1_10.index t (0 : Fin 3) = (i 0).val := q0
  have q1' : win1_10.index t (1 : Fin 3) = (i 1).val / 256 := q1
  refine ⟨t, flush1_10 t, ?_⟩
  rw [mem_blk10]
  intro a
  match a with
  | ⟨0, _⟩ => show win1_10.index t (0 : Fin 3) * 1 ≤ (i 0).val ∧ (i 0).val < win1_10.index t (0 : Fin 3) * 1 + 1; omega
  | ⟨1, _⟩ => show win1_10.index t (1 : Fin 3) * 256 ≤ (i 1).val ∧ (i 1).val < win1_10.index t (1 : Fin 3) * 256 + 256; omega
  | ⟨2, _⟩ => show win1_10.index t (2 : Fin 3) * 1024 ≤ (i 2).val ∧ (i 2).val < win1_10.index t (2 : Fin 3) * 1024 + 1024; omega

include hK hV in
/-- What a point writes back is its tile of the layer's output. -/
theorem flushed10_eq (t : Fin cfg1.N) :
    (dat1 V c).flushed 10 t = ((cfg1.win 10).blk t).view.read (Elt Ideal) (outArr V Wk Wv c) := by
  show (cfg1.win 10).cut (grid1.coords t) ((dat1 V c).after 10 t) = _
  rw [after1_10]
  unfold out1_10
  rw [View.canon_unit_zero hz3]
  simp only [View.ld_unit_zero (S := S1x256x1024) hz3, View.ld_unit_zero (S := S1024x256) hz2, View.ld_unit_zero (S := S1x2048x256) hz3,
    View.ld_unit_zero (S := S1x2048x1024) hz3, View.ld_unit_zero (S := S1024x1024) hz2, View.ld_unit_zero (S := S1x1024) hz2,
    View.ld_unit_zero (S := S1x256) hz2, View.ld_unit_zero (S := S256x1024) hz2]
  obtain ⟨f1, f2, f3, f4, f5, f6, f7, f8, f9, f10, f11, f12, f13, f14, f15, f16, f17, f18, f19, f20, f21, f22, f23, f24, f25, f26, f27, f28, f29⟩ := idx_facts t
  funext j
  show k1_pay1 (F := Ideal) (k1_pay2 (iblk1 V c 0 t)) (k1_pay5 (iblk1 V c 0 t) (iblk1 V c 3 t) (iblk1 V c 1 t) (iblk1 V c 2 t) (iblk1 V c 4 t))
      (iblk1 V c 5 t) (iblk1 V c 6 t) (iblk1 V c 7 t) (iblk1 V c 8 t) (iblk1 V c 9 t) j
    = outArr V Wk Wv c (((cfg1.win 10).blk t).view.emb j)
  have hj0 : (j 0).val < 1 := (j 0).isLt
  have hj1 : (j 1).val < 256 := (j 1).isLt
  have hj2 : (j 2).val < 1024 := (j 2).isLt
  have hb : win1_10.index t (0 : Fin 3) < 4 := by omega
  have hrow : ∀ p : Fin 256, win1_10.index t (1 : Fin 3) * 256 + p.val < 2048 := fun p => by have := p.isLt; omega
  refine ((congrArg (k1_pay1 (F := Ideal) (k1_pay2 (iblk1 V c 0 t)) (k1_pay5 (iblk1 V c 0 t) (iblk1 V c 3 t) (iblk1 V c 1 t) (iblk1 V c 2 t) (iblk1 V c 4 t))
      (iblk1 V c 5 t) (iblk1 V c 6 t) (iblk1 V c 7 t) (iblk1 V c 8 t) (iblk1 V c 9 t)) (Cert.KernelIdeal.Blocks.eq_ix3_unit j)).trans
    (Cert.KernelIdeal.Blocks1.out_block (aX V c) (aWq V c) Wk Wv (aWo V c) (aBo V c) (aW1 V c) (aB1 V c) (aW2 V c) (aB2 V c)
      ⟨win1_10.index t (0 : Fin 3), hb⟩ (fun p => ⟨win1_10.index t (1 : Fin 3) * 256 + p.val, hrow p⟩)
      (iblk1 V c 0 t) (iblk1 V c 3 t) (iblk1 V c 1 t) (iblk1 V c 2 t) (iblk1 V c 4 t) (iblk1 V c 5 t) (iblk1 V c 6 t) (iblk1 V c 7 t)
      (iblk1 V c 8 t) (iblk1 V c 9 t)
      (fun p d => blk0_apply V c t _ _
        (by show win1_10.index t (0 : Fin 3) = win1_0.index t (0 : Fin 3) * 1 + 1 * 0; omega)
        (by show win1_10.index t (1 : Fin 3) * 256 + p.val = win1_0.index t (1 : Fin 3) * 256 + 1 * p.val; omega)
        (by show d.val = win1_0.index t (2 : Fin 3) * 1024 + 1 * d.val; omega))
      (fun d k => blk3_apply V c t _ _
        (by show d.val = win1_3.index t (0 : Fin 2) * 1024 + 1 * d.val; omega)
        (by show k.val = win1_3.index t (1 : Fin 2) * 256 + 1 * k.val; omega))
      (fun s k => (blk1_apply V c t _ (ix3 (⟨win1_10.index t (0 : Fin 3), hb⟩ : Fin 4) s k)
        (by show win1_10.index t (0 : Fin 3) = win1_1.index t (0 : Fin 3) * 1 + 1 * 0; omega)
        (by show s.val = win1_1.index t (1 : Fin 3) * 2048 + 1 * s.val; omega)
        (by show k.val = win1_1.index t (2 : Fin 3) * 256 + 1 * k.val; omega)).trans (hK _ s k))
      (fun s e => (blk2_apply V c t _ (ix3 (⟨win1_10.index t (0 : Fin 3), hb⟩ : Fin 4) s e)
        (by show win1_10.index t (0 : Fin 3) = win1_2.index t (0 : Fin 3) * 1 + 1 * 0; omega)
        (by show s.val = win1_2.index t (1 : Fin 3) * 2048 + 1 * s.val; omega)
        (by show e.val = win1_2.index t (2 : Fin 3) * 1024 + 1 * e.val; omega)).trans (hV _ s e))
      (fun e o => blk4_apply V c t _ _
        (by show e.val = win1_4.index t (0 : Fin 2) * 1024 + 1 * e.val; omega)
        (by show o.val = win1_4.index t (1 : Fin 2) * 1024 + 1 * o.val; omega))
      (fun o => blk5_apply V c t _ (ix2 (0 : Fin 1) o)
        (by show 0 = win1_5.index t (0 : Fin 2) * 1 + 1 * 0; omega)
        (by show o.val = win1_5.index t (1 : Fin 2) * 1024 + 1 * o.val; omega))
      (fun d k => blk6_apply V c t _ _
        (by show d.val = win1_6.index t (0 : Fin 2) * 1024 + 1 * d.val; omega)
        (by show k.val = win1_6.index t (1 : Fin 2) * 256 + 1 * k.val; omega))
      (fun k => blk7_apply V c t _ (ix2 (0 : Fin 1) k)
        (by show 0 = win1_7.index t (0 : Fin 2) * 1 + 1 * 0; omega)
        (by show k.val = win1_7.index t (1 : Fin 2) * 256 + 1 * k.val; omega))
      (fun k o => blk8_apply V c t _ _
        (by show k.val = win1_8.index t (0 : Fin 2) * 256 + 1 * k.val; omega)
        (by show o.val = win1_8.index t (1 : Fin 2) * 1024 + 1 * o.val; omega))
      (fun o => blk9_apply V c t _ (ix2 (0 : Fin 1) o)
        (by show 0 = win1_9.index t (0 : Fin 2) * 1 + 1 * 0; omega)
        (by show o.val = win1_9.index t (1 : Fin 2) * 1024 + 1 * o.val; omega))
      (j 1) (j 2))).trans ?_
  refine layerOut_congr _ _ _ _ _ _ _ _ _ ?_ ?_ ?_
  · show win1_10.index t (0 : Fin 3) * 1 + 1 * (j 0).val = win1_10.index t (0 : Fin 3); omega
  · show win1_10.index t (1 : Fin 3) * 256 + 1 * (j 1).val = win1_10.index t (1 : Fin 3) * 256 + (j 1).val; omega
  · show win1_10.index t (2 : Fin 3) * 1024 + 1 * (j 2).val = (j 2).val; omega

include hK hV in
/-- After the region's last point the array holds the layer's output. -/
theorem final10 : (dat1 V c).arrAt 10 cfg1.N = outArr V Wk Wv c :=
  (dat1 V c).arrAt_eq_of_cover 10 _ (fun t _ => flushed10_eq V Wk Wv c hK hV t) cover10

end Finals

end Cert.KernelIdeal.Region1

end
-- ==== Proof.Region0.lean ====
/-
  The first region: the key and value projections as whole arrays.

  The grid has sixteen points: a batch index (four) and a block of 512 rows (four per batch).  At a point the body
  reads 512 rows of the input and both weight matrices whole, and writes 512 rows of each projection.  An entry of a
  written block depends on one row of the input block and one column of a weight matrix; the row of the block is row
  512 * (block index) + (row inside the block) of the array, in the point's batch.  The blocks of either output tile its
  array, so after the last point the key array is (input rows) x (key weights) and the value array is
  (input rows) x (value weights), entry by entry, whatever the region found in its buffers.
-/
import proofs.«117887_j35158602285745_2_alg».proof.Proof.Gen.KernelIdeal.Frame
import proofs.«117887_j35158602285745_2_alg».proof.Proof.Blocks0
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Rows of a 4 x 2048 x 1024 array times a 1024 x 256 matrix. -/
abbrev rowsTimes256 (x : S4x2048x1024.Idx → EReal) (w : S1024x256.Idx → EReal) : S4x2048x256.Idx → EReal :=
  fun i => ∑ d : Fin 1024, x (ix3 (i 0) (i 1) d) * w (ix2 d (i 2))

/-- Rows of a 4 x 2048 x 1024 array times a 1024 x 1024 matrix. -/
abbrev rowsTimes1024 (x : S4x2048x1024.Idx → EReal) (w : S1024x1024.Idx → EReal) : S4x2048x1024.Idx → EReal :=
  fun i => ∑ d : Fin 1024, x (ix3 (i 0) (i 1) d) * w (ix2 d (i 2))

/-- The block indices over the sixteen points: the input's and both outputs' blocks sit at (batch, row block, 0), the
    weights' at (0, 0); batch and row block range over 0..3. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_4.index t (0 : Fin 3) = win0_3.index t (0 : Fin 3) ∧ win0_4.index t (1 : Fin 3) = win0_3.index t (1 : Fin 3)
    ∧ win0_4.index t (2 : Fin 3) = 0
    ∧ win0_2.index t (0 : Fin 2) = 0 ∧ win0_2.index t (1 : Fin 2) = 0
    ∧ win0_3.index t (0 : Fin 3) ≤ 3 ∧ win0_3.index t (1 : Fin 3) ≤ 3 :=
  (by decide +kernel : ∀ t : Fin grid0.N, _)

/-- Every (batch, row block) is some point's. -/
theorem idx_onto : ∀ (q0 : Fin 4) (q1 : Fin 4), ∃ t : Fin cfg0.N,
    win0_3.index t (0 : Fin 3) = q0.val ∧ win0_3.index t (1 : Fin 3) = q1.val :=
  (by decide +kernel : ∀ (q0 : Fin 4) (q1 : Fin 4), ∃ t : Fin grid0.N, _)

/-! ## The input windows' blocks as entries of their arrays -/

/-- The input block at a point: entry y sits in the array at block index times block size plus y, axis by axis. -/
theorem xblk_apply (c : Dev nD) (t : Fin cfg0.N) (y : S1x512x1024.Idx) (k : S4x2048x1024.Idx)
    (h0 : (k 0).val = win0_0.index t (0 : Fin 3) * 1 + 1 * (y 0).val)
    (h1 : (k 1).val = win0_0.index t (1 : Fin 3) * 512 + 1 * (y 1).val)
    (h2 : (k 2).val = win0_0.index t (2 : Fin 3) * 1024 + 1 * (y 2).val) :
    (iblk0 V c 0 t : S1x512x1024.Idx → EReal) y = (V c main_arg0 : S4x2048x1024.Idx → EReal) k := by
  unfold iblk0
  rw [View.read_apply]
  show V c main_arg0 _ = V c main_arg0 _
  congr 1
  funext a
  apply Fin.ext
  match a with
  | ⟨0, _⟩ => exact h0.symm
  | ⟨1, _⟩ => exact h1.symm
  | ⟨2, _⟩ => exact h2.symm

/-- The key weights' block at a point. -/
theorem wblk1_apply (c : Dev nD) (t : Fin cfg0.N) (y : S1024x256.Idx) (k : S1024x256.Idx)
    (h0 : (k 0).val = win0_1.index t (0 : Fin 2) * 1024 + 1 * (y 0).val)
    (h1 : (k 1).val = win0_1.index t (1 : Fin 2) * 256 + 1 * (y 1).val) :
    (iblk0 V c 1 t : S1024x256.Idx → EReal) y = (V c main_v0 : S1024x256.Idx → EReal) k := by
  unfold iblk0
  rw [View.read_apply]
  show V c main_v0 _ = V c main_v0 _
  congr 1
  funext a
  apply Fin.ext
  match a with
  | ⟨0, _⟩ => exact h0.symm
  | ⟨1, _⟩ => exact h1.symm

/-- The value weights' block at a point. -/
theorem wblk2_apply (c : Dev nD) (t : Fin cfg0.N) (y : S1024x1024.Idx) (k : S1024x1024.Idx)
    (h0 : (k 0).val = win0_2.index t (0 : Fin 2) * 1024 + 1 * (y 0).val)
    (h1 : (k 1).val = win0_2.index t (1 : Fin 2) * 1024 + 1 * (y 1).val) :
    (iblk0 V c 2 t : S1024x1024.Idx → EReal) y = (V c main_v1 : S1024x1024.Idx → EReal) k := by
  unfold iblk0
  rw [View.read_apply]
  show V c main_v1 _ = V c main_v1 _
  congr 1
  funext a
  apply Fin.ext
  match a with
  | ⟨0, _⟩ => exact h0.symm
  | ⟨1, _⟩ => exact h1.symm

/-! ## Output window 3: the keys -/

theorem mem_blk3 (t : Fin cfg0.N) (i : S4x2048x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v9_0).slice (win0_3.rect t)).set ↔ _
  rw [View.set_slice_whole, Rect.mem_set_unit]
  exact Iff.rfl

/-- What a point writes back is its block of the whole product: rows of the input times the weight matrix. -/
theorem flushed3_eq (c : Dev nD) (t : Fin cfg0.N) :
    (dat0 V c).flushed 3 t = ((cfg0.win 3).blk t).view.read (Elt Ideal) (rowsTimes256 (V c main_arg0) (V c main_v0)) := by
  show (cfg0.win 3).cut (grid0.coords t) ((dat0 V c).after 3 t) = _
  rw [after0_3]
  unfold out0_3
  rw [View.canon_unit_zero hz3]
  simp only [View.ld_unit_zero (S := S1x512x1024) hz3, View.ld_unit_zero (S := S1024x256) hz2]
  obtain ⟨e00, e01, e02, e32, e10, e11, e40, e41, e42, e20, e21, -, -⟩ := idx_facts t
  funext j
  show k0_pay2 (F := Ideal) (iblk0 V c 0 t) (iblk0 V c 1 t) j = rowsTimes256 (V c main_arg0) (V c main_v0) (((cfg0.win 3).blk t).view.emb j)
  have hj0 : (j 0).val < 1 := (j 0).isLt
  have hj1 : (j 1).val < 512 := (j 1).isLt
  have hj2 : (j 2).val < 256 := (j 2).isLt
  refine (Cert.KernelIdeal.Blocks.keys_block_at _ _ j).trans ?_
  refine Finset.sum_congr rfl fun d _ => ?_
  congr 1
  · refine xblk_apply V c t _ _ ?_ ?_ ?_
    · show win0_3.index t (0 : Fin 3) * 1 + 1 * (j 0).val = win0_0.index t (0 : Fin 3) * 1 + 1 * 0; omega
    · show win0_3.index t (1 : Fin 3) * 512 + 1 * (j 1).val = win0_0.index t (1 : Fin 3) * 512 + 1 * (j 1).val; omega
    · show d.val = win0_0.index t (2 : Fin 3) * 1024 + 1 * d.val; omega
  · refine wblk1_apply V c t _ _ ?_ ?_
    · show d.val = win0_1.index t (0 : Fin 2) * 1024 + 1 * d.val; omega
    · show win0_3.index t (2 : Fin 3) * 256 + 1 * (j 2).val = win0_1.index t (1 : Fin 2) * 256 + 1 * (j 2).val; omega

/-- Every index of the array lies in some point's block: the batch is the point's first coordinate, the row block its second. -/
theorem cover3 (i : S4x2048x256.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 256 := (i 2).isLt
  obtain ⟨t, q0, q1⟩ := idx_onto ⟨(i 0).val, hi0⟩ ⟨(i 1).val / 512, by omega⟩
  obtain ⟨e00, e01, e02, e32, e10, e11, e40, e41, e42, e20, e21, -, -⟩ := idx_facts t
  have q0' : win0_3.index t (0 : Fin 3) = (i 0).val := q0
  have q1' : win0_3.index t (1 : Fin 3) = (i 1).val / 512 := q1
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- After the region's last point the array holds the whole product. -/
theorem final3 (c : Dev nD) : (dat0 V c).arrAt 3 cfg0.N = rowsTimes256 (V c main_arg0) (V c main_v0) :=
  (dat0 V c).arrAt_eq_of_cover 3 _ (fun t _ => flushed3_eq V c t) cover3

/-! ## Output window 4: the values -/

theorem mem_blk4 (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v9_1).slice (win0_4.rect t)).set ↔ _
  rw [View.set_slice_whole, Rect.mem_set_unit]
  exact Iff.rfl

/-- What a point writes back is its block of the whole product: rows of the input times the weight matrix. -/
theorem flushed4_eq (c : Dev nD) (t : Fin cfg0.N) :
    (dat0 V c).flushed 4 t = ((cfg0.win 4).blk t).view.read (Elt Ideal) (rowsTimes1024 (V c main_arg0) (V c main_v1)) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x1024) hz2]
  obtain ⟨e00, e01, e02, e32, e10, e11, e40, e41, e42, e20, e21, -, -⟩ := idx_facts t
  funext j
  show k0_pay3 (F := Ideal) (iblk0 V c 0 t) (iblk0 V c 2 t) j = rowsTimes1024 (V c main_arg0) (V c main_v1) (((cfg0.win 4).blk t).view.emb j)
  have hj0 : (j 0).val < 1 := (j 0).isLt
  have hj1 : (j 1).val < 512 := (j 1).isLt
  have hj2 : (j 2).val < 1024 := (j 2).isLt
  refine (Cert.KernelIdeal.Blocks.vals_block_at _ _ j).trans ?_
  refine Finset.sum_congr rfl fun d _ => ?_
  congr 1
  · refine xblk_apply V c t _ _ ?_ ?_ ?_
    · show win0_4.index t (0 : Fin 3) * 1 + 1 * (j 0).val = win0_0.index t (0 : Fin 3) * 1 + 1 * 0; omega
    · show win0_4.index t (1 : Fin 3) * 512 + 1 * (j 1).val = win0_0.index t (1 : Fin 3) * 512 + 1 * (j 1).val; omega
    · show d.val = win0_0.index t (2 : Fin 3) * 1024 + 1 * d.val; omega
  · refine wblk2_apply V c t _ _ ?_ ?_
    · show d.val = win0_2.index t (0 : Fin 2) * 1024 + 1 * d.val; omega
    · show win0_4.index t (2 : Fin 3) * 1024 + 1 * (j 2).val = win0_2.index t (1 : Fin 2) * 1024 + 1 * (j 2).val; omega

/-- Every index of the array lies in some point's block: the batch is the point's first coordinate, the row block its second. -/
theorem cover4 (i : S4x2048x1024.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, q0, q1⟩ := idx_onto ⟨(i 0).val, hi0⟩ ⟨(i 1).val / 512, by omega⟩
  obtain ⟨e00, e01, e02, e32, e10, e11, e40, e41, e42, e20, e21, -, -⟩ := idx_facts t
  have q0' : win0_3.index t (0 : Fin 3) = (i 0).val := q0
  have q1' : win0_3.index t (1 : Fin 3) = (i 1).val / 512 := q1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- After the region's last point the array holds the whole product. -/
theorem final4 (c : Dev nD) : (dat0 V c).arrAt 4 cfg0.N = rowsTimes1024 (V c main_arg0) (V c main_v1) :=
  (dat0 V c).arrAt_eq_of_cover 4 _ (fun t _ => flushed4_eq V c t) cover4

end Cert.KernelIdeal.Region0

end
-- ==== Proof.HostReads.lean ====
/-
  What the two regions find in their buffers, as the launch contents of the arguments.

  Before the first region the host casts six weight matrices to the narrower float format (the identity at the exact
  instance) and reshapes the three bias vectors to one-row matrices; nothing writes an argument.  So the first region
  finds the input and the key and value weights as launched.  The second region finds what the first one left: the
  input unchanged, the key and value arrays at the projections of the input (the first region's two results), and the
  remaining weights and biases as the host operations made them, which no array of the first region overlaps.
-/
import proofs.«117887_j35158602285745_2_alg».proof.Proof.Gen.KernelIdeal.Frame
import proofs.«117887_j35158602285745_2_alg».proof.Proof.Region0
import proofs.«117887_j35158602285745_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Reads

open Cert.KernelIdeal Cert.KernelIdeal.Gen Idealize.ShloMosaic Idealize.ShloMosaic.TcCoe Idealize.SL.Sem
open Idealize.ShloMosaic.ValueIdx Cert.Layer Idealize.ShloMosaic.StableHlo
open Idealize.ShloMosaic.Pipeline (Dat)

variable (m : (ℓ : Loc nD τ sig) → Buf (Elt Ideal) ℓ) (ρ : Dev nD → PrngReg)

/-! ## At the first region's entry -/

theorem v1_x (c : Dev nD) : (V1 m ρ c main_arg0 : S4x2048x1024.Idx → EReal) = (m ((c.tc : Thread nD τ).loc main_arg0)) := by
  dsimp only [V1, W1, hostOps0]; after_results
theorem v1_wk (c : Dev nD) : (V1 m ρ c main_v0 : S1024x256.Idx → EReal) = (m ((c.tc : Thread nD τ).loc main_arg2)) := by
  dsimp only [V1, W1, hostOps0]; after_results; rfl
theorem v1_wv (c : Dev nD) : (V1 m ρ c main_v1 : S1024x1024.Idx → EReal) = (m ((c.tc : Thread nD τ).loc main_arg3)) := by
  dsimp only [V1, W1, hostOps0]; after_results; rfl
theorem v1_wq (c : Dev nD) : (V1 m ρ c main_v2 : S1024x256.Idx → EReal) = (m ((c.tc : Thread nD τ).loc main_arg1)) := by
  dsimp only [V1, W1, hostOps0]; after_results; rfl
theorem v1_wo (c : Dev nD) : (V1 m ρ c main_v3 : S1024x1024.Idx → EReal) = (m ((c.tc : Thread nD τ).loc main_arg4)) := by
  dsimp only [V1, W1, hostOps0]; after_results; rfl
theorem v1_w1 (c : Dev nD) : (V1 m ρ c main_v4 : S1024x256.Idx → EReal) = (m ((c.tc : Thread nD τ).loc main_arg6)) := by
  dsimp only [V1, W1, hostOps0]; after_results; rfl
theorem v1_w2 (c : Dev nD) : (V1 m ρ c main_v5 : S256x1024.Idx → EReal) = (m ((c.tc : Thread nD τ).loc main_arg8)) := by
  dsimp only [V1, W1, hostOps0]; after_results; rfl
theorem v1_bo (c : Dev nD) : (V1 m ρ c main_v6 : S1x1024.Idx → EReal)
    = shapeCast S1x1024 ((m ((c.tc : Thread nD τ).loc main_arg5)) : S1024.Idx → EReal) Facts₀.shapeCasts_S1024_S1x1024 := by
  dsimp only [V1, W1, hostOps0]; after_results; rfl
theorem v1_b1 (c : Dev nD) : (V1 m ρ c main_v7 : S1x256.Idx → EReal)
    = shapeCast S1x256 ((m ((c.tc : Thread nD τ).loc main_arg7)) : S256.Idx → EReal) Facts₀.shapeCasts_S256_S1x256 := by
  dsimp only [V1, W1, hostOps0]; after_results; rfl
theorem v1_b2 (c : Dev nD) : (V1 m ρ c main_v8 : S1x1024.Idx → EReal)
    = shapeCast S1x1024 ((m ((c.tc : Thread nD τ).loc main_arg9)) : S1024.Idx → EReal) Facts₀.shapeCasts_S1024_S1x1024 := by
  dsimp only [V1, W1, hostOps0]; after_results; rfl

/-! ## At the second region's entry -/

theorem v2_x (c : Dev nD) : (V2 m ρ c main_arg0 : S4x2048x1024.Idx → EReal) = (m ((c.tc : Thread nD τ).loc main_arg0)) :=
  ((W2_arr m ρ c 0).trans (((dat0 (V1 m ρ) c).arrAt_in 0 rfl _).trans (A_eq0 (V1 m ρ) c 0))).trans (v1_x m ρ c)
theorem v2_wq (c : Dev nD) : (V2 m ρ c main_v2 : S1024x256.Idx → EReal) = (m ((c.tc : Thread nD τ).loc main_arg1)) :=
  (W2_of_ne m ρ c main_v2 (by decide)).trans (v1_wq m ρ c)
theorem v2_wo (c : Dev nD) : (V2 m ρ c main_v3 : S1024x1024.Idx → EReal) = (m ((c.tc : Thread nD τ).loc main_arg4)) :=
  (W2_of_ne m ρ c main_v3 (by decide)).trans (v1_wo m ρ c)
theorem v2_w1 (c : Dev nD) : (V2 m ρ c main_v4 : S1024x256.Idx → EReal) = (m ((c.tc : Thread nD τ).loc main_arg6)) :=
  (W2_of_ne m ρ c main_v4 (by decide)).trans (v1_w1 m ρ c)
theorem v2_w2 (c : Dev nD) : (V2 m ρ c main_v5 : S256x1024.Idx → EReal) = (m ((c.tc : Thread nD τ).loc main_arg8)) :=
  (W2_of_ne m ρ c main_v5 (by decide)).trans (v1_w2 m ρ c)

/-- A length-n vector reshaped to one row and read back along that row is the vector. -/
theorem row_of_reshape {n : ℕ} (v : (⟨1, ![n]⟩ : Shape).Idx → EReal) (h : (⟨1, ![n]⟩ : Shape).ShapeCasts ⟨2, ![1, n]⟩) :
    (fun i : (⟨1, ![n]⟩ : Shape).Idx => shapeCast ⟨2, ![1, n]⟩ v h (ix2 (0 : Fin 1) (i 0))) = v := by
  funext i
  refine (shapeCast_a_1a_apply v h (0 : Fin 1) (i 0)).trans ?_
  exact congrArg v (eq_ix1 i).symm

theorem v2_bo (c : Dev nD) : (fun i : S1024.Idx => (V2 m ρ c main_v6 : S1x1024.Idx → EReal) (ix2 (0 : Fin 1) (i 0))) = (m ((c.tc : Thread nD τ).loc main_arg5)) := by
  rw [show (V2 m ρ c main_v6 : S1x1024.Idx → EReal) = _ from (W2_of_ne m ρ c main_v6 (by decide)).trans (v1_bo m ρ c)]
  exact row_of_reshape _ _
theorem v2_b1 (c : Dev nD) : (fun i : S256.Idx => (V2 m ρ c main_v7 : S1x256.Idx → EReal) (ix2 (0 : Fin 1) (i 0))) = (m ((c.tc : Thread nD τ).loc main_arg7)) := by
  rw [show (V2 m ρ c main_v7 : S1x256.Idx → EReal) = _ from (W2_of_ne m ρ c main_v7 (by decide)).trans (v1_b1 m ρ c)]
  exact row_of_reshape _ _
theorem v2_b2 (c : Dev nD) : (fun i : S1024.Idx => (V2 m ρ c main_v8 : S1x1024.Idx → EReal) (ix2 (0 : Fin 1) (i 0))) = (m ((c.tc : Thread nD τ).loc main_arg9)) := by
  rw [show (V2 m ρ c main_v8 : S1x1024.Idx → EReal) = _ from (W2_of_ne m ρ c main_v8 (by decide)).trans (v1_b2 m ρ c)]
  exact row_of_reshape _ _

/-- The key array the second region finds: the input's rows times the key weights. -/
theorem v2_keys (c : Dev nD) (b : Fin 4) (s : Fin 2048) (k : Fin 256) :
    (V2 m ρ c main_v9_0 : S4x2048x256.Idx → EReal) (ix3 b s k) = proj256 (m ((c.tc : Thread nD τ).loc main_arg0)) (m ((c.tc : Thread nD τ).loc main_arg2)) b s k := by
  rw [show (V2 m ρ c main_v9_0 : S4x2048x256.Idx → EReal) = _ from (W2_arr m ρ c 3).trans (Cert.KernelIdeal.Region0.final3 (V1 m ρ) c)]
  rw [v1_x m ρ c, v1_wk m ρ c]
  rfl

/-- The value array the second region finds: the input's rows times the value weights. -/
theorem v2_vals (c : Dev nD) (b : Fin 4) (s : Fin 2048) (e : Fin 1024) :
    (V2 m ρ c main_v9_1 : S4x2048x1024.Idx → EReal) (ix3 b s e) = proj1024 (m ((c.tc : Thread nD τ).loc main_arg0)) (m ((c.tc : Thread nD τ).loc main_arg3)) b s e := by
  rw [show (V2 m ρ c main_v9_1 : S4x2048x1024.Idx → EReal) = _ from (W2_arr m ρ c 4).trans (Cert.KernelIdeal.Region0.final4 (V1 m ρ) c)]
  rw [v1_x m ρ c, v1_wv m ρ c]
  rfl

end Cert.KernelIdeal.Reads

end
-- ==== Proof.KernelRun.lean ====
/-
  The whole program's run with its two result arrays named.

  The program is two pipelined regions after a stretch of host operations.  The state of the buffers at each boundary
  is a fold through the program: the launch memory, then the host operations' results, then after each region its
  arrays at what the region's write-backs leave and every other buffer as the region found it.  Every weakly fair
  execution terminates without a fault in a state where every unscoped buffer holds the last boundary's contents; read
  at the two result buffers these are the second region's output arrays after all of its grid points, and read at the
  ten arguments they are the launch contents.
-/
import proofs.«117887_j35158602285745_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the two result buffers at the second region's output arrays after its last grid point
    (the entry contents of that region being what the first region left), and the arguments as launched. -/
theorem run_results : θ_run defs (onTc (τ := τ) (main (F := F))) ⟨m, fun _ => 0, ρ⟩ (fun r => ∀ c : Dev nD,
      r.2.mem ((c.tc : Thread nD τ).loc main_v10_0) = (dat1 (V2 m ρ) c).arrAt 10 cfg1.N
      ∧ r.2.mem ((c.tc : Thread nD τ).loc main_v10_1) = (dat1 (V2 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v10_0 (by decide))).trans (W3_arr m ρ c 10),
       (h c _ (mem_uc main_v10_1 (by decide))).trans (W3_arr m ρ c 11),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Whole

end
-- ==== Proof.KernelValue.lean ====
/-
  The idealized kernel's two results as functions of its arguments.

  The second region's output arrays are the layer's attention weights and output of the contents it finds; what it
  finds are the launch contents of the input, weights and biases, and the first region's key and value projections of
  that input.  So after the run the two result arrays are the attention weights and the layer output of the argument
  arrays, with the 1/16 scale applied to the queries before the contraction with the keys.
-/
import proofs.«117887_j35158602285745_2_alg».proof.Proof.Gen.KernelIdeal.Frame
import proofs.«117887_j35158602285745_2_alg».proof.Proof.Region1
import proofs.«117887_j35158602285745_2_alg».proof.Proof.HostReads
import proofs.«117887_j35158602285745_2_alg».proof.Proof.KernelRun
import proofs.«117887_j35158602285745_2_alg».proof.Proof.Spec
import Idealize.ShloMosaic.Lib.Pipeline.Value
import Idealize.ShloMosaic.Lib.ValueIdx

set_option maxRecDepth 16384

noncomputable section

namespace Cert.KernelIdeal.WholeValue

open Cert.KernelIdeal Cert.KernelIdeal.Gen Idealize.ShloMosaic Idealize.ShloMosaic.TcCoe Idealize.SL.Sem
open Idealize.ShloMosaic.ValueIdx Cert.Layer
open Idealize.ShloMosaic.Pipeline (Dat)

/-- The attention weights of the arguments, the scale applied inside the contraction. -/
abbrev attnOf (x : S4x2048x1024.Idx → EReal) (wq wk : S1024x256.Idx → EReal) : S4x2048x2048.Idx → EReal :=
  fun i => attnW (scoresIn (Ideal.ofBits .f32 0x3D800000#32) (proj256 x wq) (proj256 x wk)) (i 0) (i 1) (i 2)

/-- The layer's output of the arguments, the scale applied inside the contraction. -/
abbrev outOf (x : S4x2048x1024.Idx → EReal) (wq wk : S1024x256.Idx → EReal) (wv wo : S1024x1024.Idx → EReal) (bo : S1024.Idx → EReal)
    (w1 : S1024x256.Idx → EReal) (b1 : S256.Idx → EReal) (w2 : S256x1024.Idx → EReal) (b2 : S1024.Idx → EReal) : S4x2048x1024.Idx → EReal :=
  fun i => layerOut (scoresIn (Ideal.ofBits .f32 0x3D800000#32) (proj256 x wq) (proj256 x wk)) x (proj1024 x wv) wo bo w1 b1 w2 b2 (i 0) (i 1) (i 2)

variable (m : (ℓ : Loc nD τ sig) → Buf (Elt Ideal) ℓ) (ρ : Dev nD → PrngReg)

/-- The key array the second region finds is the projection of the input it finds. -/
theorem keys_found (c : Dev nD) (b : Fin 4) (s : Fin 2048) (k : Fin 256) :
    (V2 m ρ c main_v9_0 : S4x2048x256.Idx → EReal) (ix3 b s k) = proj256 (Cert.KernelIdeal.Region1.aX (V2 m ρ) c) (m ((c.tc : Thread nD τ).loc main_arg2)) b s k := by
  rw [show Cert.KernelIdeal.Region1.aX (V2 m ρ) c = (m ((c.tc : Thread nD τ).loc main_arg0)) from Cert.KernelIdeal.Reads.v2_x m ρ c]
  exact Cert.KernelIdeal.Reads.v2_keys m ρ c b s k

/-- The value array the second region finds is the projection of the input it finds. -/
theorem vals_found (c : Dev nD) (b : Fin 4) (s : Fin 2048) (e : Fin 1024) :
    (V2 m ρ c main_v9_1 : S4x2048x1024.Idx → EReal) (ix3 b s e) = proj1024 (Cert.KernelIdeal.Region1.aX (V2 m ρ) c) (m ((c.tc : Thread nD τ).loc main_arg3)) b s e := by
  rw [show Cert.KernelIdeal.Region1.aX (V2 m ρ) c = (m ((c.tc : Thread nD τ).loc main_arg0)) from Cert.KernelIdeal.Reads.v2_x m ρ c]
  exact Cert.KernelIdeal.Reads.v2_vals m ρ c b s e

/-- The second region's attention weights, once the arrays it finds are named. -/
theorem attnArr_eq (V : (c : Dev nD) → (b : Ref sig .tc) → Buf (Elt Ideal) ((c : Thread nD τ).loc b)) (Wk : S1024x256.Idx → EReal) (c : Dev nD)
    {x : S4x2048x1024.Idx → EReal} {wq : S1024x256.Idx → EReal}
    (hx : Cert.KernelIdeal.Region1.aX V c = x) (hq : Cert.KernelIdeal.Region1.aWq V c = wq) :
    Cert.KernelIdeal.Region1.attnArr V Wk c = attnOf x wq Wk := by
  subst hx hq; rfl

/-- The second region's output, once the arrays it finds are named. -/
theorem outArr_eq (V : (c : Dev nD) → (b : Ref sig .tc) → Buf (Elt Ideal) ((c : Thread nD τ).loc b)) (Wk : S1024x256.Idx → EReal)
    (Wv : S1024x1024.Idx → EReal) (c : Dev nD)
    {x : S4x2048x1024.Idx → EReal} {wq : S1024x256.Idx → EReal} {wo : S1024x1024.Idx → EReal} {bo : S1024.Idx → EReal}
    {w1 : S1024x256.Idx → EReal} {b1 : S256.Idx → EReal} {w2 : S256x1024.Idx → EReal} {b2 : S1024.Idx → EReal}
    (hx : Cert.KernelIdeal.Region1.aX V c = x) (hq : Cert.KernelIdeal.Region1.aWq V c = wq)
    (ho : Cert.KernelIdeal.Region1.aWo V c = wo) (hbo : Cert.KernelIdeal.Region1.aBo V c = bo)
    (h1 : Cert.KernelIdeal.Region1.aW1 V c = w1) (hb1 : Cert.KernelIdeal.Region1.aB1 V c = b1)
    (h2 : Cert.KernelIdeal.Region1.aW2 V c = w2) (hb2 : Cert.KernelIdeal.Region1.aB2 V c = b2) :
    Cert.KernelIdeal.Region1.outArr V Wk Wv c = outOf x wq Wk Wv wo bo w1 b1 w2 b2 := by
  subst hx hq ho hbo h1 hb1 h2 hb2; rfl

/-- The attention-weights array after the run. -/
theorem final_attn (c : Dev nD) : (dat1 (V2 m ρ) c).arrAt 11 cfg1.N = attnOf (m ((c.tc : Thread nD τ).loc main_arg0)) (m ((c.tc : Thread nD τ).loc main_arg1)) (m ((c.tc : Thread nD τ).loc main_arg2)) :=
  (Cert.KernelIdeal.Region1.final11 (V2 m ρ) (m ((c.tc : Thread nD τ).loc main_arg2)) c (keys_found m ρ c)).trans
    (attnArr_eq (V2 m ρ) (m ((c.tc : Thread nD τ).loc main_arg2)) c (Cert.KernelIdeal.Reads.v2_x m ρ c) (Cert.KernelIdeal.Reads.v2_wq m ρ c))

/-- The output array after the run. -/
theorem final_out (c : Dev nD) : (dat1 (V2 m ρ) c).arrAt 10 cfg1.N
    = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (Cert.KernelIdeal.Region1.final10 (V2 m ρ) (m ((c.tc : Thread nD τ).loc main_arg2)) (m ((c.tc : Thread nD τ).loc main_arg3)) c (keys_found m ρ c) (vals_found m ρ c)).trans
    (outArr_eq (V2 m ρ) (m ((c.tc : Thread nD τ).loc main_arg2)) (m ((c.tc : Thread nD τ).loc main_arg3)) c (Cert.KernelIdeal.Reads.v2_x m ρ c) (Cert.KernelIdeal.Reads.v2_wq m ρ c)
      (Cert.KernelIdeal.Reads.v2_wo m ρ c) (Cert.KernelIdeal.Reads.v2_bo m ρ c) (Cert.KernelIdeal.Reads.v2_w1 m ρ c)
      (Cert.KernelIdeal.Reads.v2_b1 m ρ c) (Cert.KernelIdeal.Reads.v2_w2 m ρ c) (Cert.KernelIdeal.Reads.v2_b2 m ρ c))

/-- Every execution of the idealized kernel ends with its two results at the layer's output and attention weights of
    the arguments, and the arguments as launched. -/
theorem run_value : θ_run defs (onTc (τ := τ) (main (F := Ideal))) ⟨m, fun _ => 0, ρ⟩ (fun r => ∀ c : Dev nD,
      r.2.mem ((c.tc : Thread nD τ).loc main_v10_0) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v10_1) = attnOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (final_out m ρ c), (h c).2.1.trans (final_attn m ρ c), (h c).2.2⟩)
    (Cert.KernelIdeal.Whole.run_results m ρ)

end Cert.KernelIdeal.WholeValue

end
-- ==== Proof.lean ====
/-
  A transformer layer computed by two pipelined kernels against the same layer written with whole-array operations:
  the five claims.

  The kernel computes the key and value projections once per batch in a first region, and in a second region, per
  tile of 256 query rows, the scaled scores against all keys, their softmax, the weighted values, the output
  projection, the residual, the feed-forward block and the second residual, all in narrower float formats between
  the matrix products.  At the exact instance the format changes are the identity and every product is the textbook
  contraction, so the kernel's two results are the layer's output and attention weights of its arguments with the
  factor 1/16 applied to each query entry before the contraction with the keys (`Cert.KernelIdeal.WholeValue.run_value`).
  The reference applies 1/sqrt(256) to the contracted scores.  The square root of 256 is 16, and a finite non-negative
  factor moves across a sum of extended reals and across a product unconditionally (`Cert.Layer.scores_eq`), so the two
  score tables are equal and everything computed from them is the same function; the inputs' finiteness is not used.
  Each program's frame is its run with the results dropped; the idealization rewrote nothing.
-/
import proofs.«117887_j35158602285745_2_alg».proof.Defs
import proofs.«117887_j35158602285745_2_alg».proof.Proof.Gen.Kernel
import proofs.«117887_j35158602285745_2_alg».proof.Proof.Gen.Kernel.Frame
import proofs.«117887_j35158602285745_2_alg».proof.Proof.Gen.KernelIdeal
import proofs.«117887_j35158602285745_2_alg».proof.Proof.Gen.KernelIdeal.Frame
import proofs.«117887_j35158602285745_2_alg».proof.Proof.Gen.ReferenceIdeal
import proofs.«117887_j35158602285745_2_alg».proof.Proof.Gen.Pre_finite_inputs
import proofs.«117887_j35158602285745_2_alg».proof.Proof.Gen.ReferenceIdeal.Run
import proofs.«117887_j35158602285745_2_alg».proof.Proof.Gen.ReferenceIdeal.Read
import proofs.«117887_j35158602285745_2_alg».proof.Proof.Spec
import proofs.«117887_j35158602285745_2_alg».proof.Proof.RefSide
import proofs.«117887_j35158602285745_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.Layer

/-- The reference's output array is the kernel's function of the arguments: the two placements of the 1/16 factor agree. -/
theorem ref_out_eq (x : Cert.ReferenceIdeal.S4x2048x1024.Idx → EReal) (wq wk : Cert.ReferenceIdeal.S1024x256.Idx → EReal) (wv wo : Cert.ReferenceIdeal.S1024x1024.Idx → EReal)
    (bo : Cert.ReferenceIdeal.S1024.Idx → EReal) (w1 : Cert.ReferenceIdeal.S1024x256.Idx → EReal) (b1 : Cert.ReferenceIdeal.S256.Idx → EReal) (w2 : Cert.ReferenceIdeal.S256x1024.Idx → EReal)
    (b2 : Cert.ReferenceIdeal.S1024.Idx → EReal) :
    Cert.ReferenceIdeal.Read.val_main_v34 (F := Ideal) x wq wk wv wo bo w1 b1 w2 b2 = Cert.KernelIdeal.WholeValue.outOf x wq wk wv wo bo w1 b1 w2 b2 := by
  funext i
  obtain ⟨b, s, o, rfl⟩ : ∃ (b : Fin 4) (s : Fin 2048) (o : Fin 1024), i = ix3 b s o := ⟨i 0, i 1, i 2, eq_ix3 i⟩
  rw [Cert.ReferenceIdeal.Bridge.ref_out_apply]
  show layerOut _ x _ wo bo w1 b1 w2 b2 b s o = layerOut _ x _ wo bo w1 b1 w2 b2 b s o
  rw [ofBits_sixteenth, scores_eq sixteenth_nonneg sixteenth_ne_top]

/-- The reference's attention weights are the kernel's function of the arguments. -/
theorem ref_attn_eq (x : Cert.ReferenceIdeal.S4x2048x1024.Idx → EReal) (wq wk : Cert.ReferenceIdeal.S1024x256.Idx → EReal) :
    Cert.ReferenceIdeal.Read.val_main_v18 (F := Ideal) x wq wk = Cert.KernelIdeal.WholeValue.attnOf x wq wk := by
  funext i
  obtain ⟨b, s, t, rfl⟩ : ∃ (b : Fin 4) (s t : Fin 2048), i = ix3 b s t := ⟨i 0, i 1, i 2, eq_ix3 i⟩
  rw [Cert.ReferenceIdeal.Bridge.ref_attn_apply]
  show attnW _ b s t = attnW _ b s t
  rw [ofBits_sixteenth, scores_eq sixteenth_nonneg sixteenth_ne_top]

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the same two result arrays: the layer's output and attention weights of the arguments. -/
theorem algebraic : Cert.algebraic_KernelIdeal_ReferenceIdeal := by
  intro m ρ m' ρ' _ hagree
  refine ⟨_, _, Cert.KernelIdeal.WholeValue.run_value m ρ, ?_⟩
  refine (θ_run Cert.ReferenceIdeal.defs _ _).mono (fun _ h c => ?_) (Cert.ReferenceIdeal.Value.run (F := Ideal) m' ρ')
  obtain ⟨h34, h18, hargs⟩ := h c
  obtain ⟨a0, a1, a2, a3, a4, a5, a6, a7, a8, a9⟩ := hagree c
  refine ⟨h34.trans ?_, h18.trans ?_, hargs⟩
  · rw [Cert.ReferenceIdeal.Read.val_main_v34_eq, a0, a1, a2, a3, a4, a5, a6, a7, a8, a9]
    exact ref_out_eq _ _ _ _ _ _ _ _ _ _
  · rw [Cert.ReferenceIdeal.Read.val_main_v18_eq, a0, a1, a2]
    exact ref_attn_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
